-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024 : Shape := ⟨2, ![16, 1024]⟩
abbrev S16x1024x1024 : Shape := ⟨3, ![16, 1024, 1024]⟩
abbrev S1024x2048 : Shape := ⟨2, ![1024, 2048]⟩
abbrev S1024 : Shape := ⟨1, ![1024]⟩
abbrev S1x1024 : Shape := ⟨2, ![1, 1024]⟩
abbrev S_ : Shape := ⟨0, ![]⟩

class Facts : Prop where
  bcast_S_S16x1024 : S_.BroadcastsInDim S16x1024 (![] : Fin 0 → Fin S16x1024.rank)
  reducesTo_S16x1024_S_d0_1 : S16x1024.ReducesTo [0, 1] S_
  h_S_ : 0 < S_.numel
  bcast_S_S16x1024x1024 : S_.BroadcastsInDim S16x1024x1024 (![] : Fin 0 → Fin S16x1024x1024.rank)
  reducesTo_S16x1024x1024_S_d0_1_2 : S16x1024x1024.ReducesTo [0, 1, 2] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  main_v23

def fn {F : FTy → Type} [FloatOps F] (main_arg0 : FVec F S16x1024 .f32) (main_arg1 : FVec F S16x1024x1024 .f32) (main_arg2 : FVec F S1024x2048 .f32) (main_arg3 : FVec F S1024 .f32) (main_arg4 : FVec F S1x1024 .f32) : IVec S_ 1 :=
  let main_v0 : FVec F S16x1024 .f32 := Host.absf main_arg0
  let main_cst : FVec F S_ .f32 := constant S_ .f32 0x7F800000#32
  let main_v1 : FVec F S16x1024 .f32 := broadcastInDim S16x1024 ![] bcast_S_S16x1024 main_cst
  let main_v2 : IVec S16x1024 1 := cmpf .olt main_v0 main_v1
  let main_c : IVec S_ 1 := constantI S_ 1 1#1
  let main_v3 : IVec S_ 1 := (fun x v => Host.reduce IntOp.andi x v reducesTo_S16x1024_S_d0_1 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S16x1024 : Shape := ⟨2, ![16, 1024]⟩
abbrev S16x1024x1024 : Shape := ⟨3, ![16, 1024, 1024]⟩
abbrev S1024x2048 : Shape := ⟨2, ![1024, 2048]⟩
abbrev S1024 : Shape := ⟨1, ![1024]⟩
abbrev S1x1024 : Shape := ⟨2, ![1, 1024]⟩
abbrev S1024x1024 : Shape := ⟨2, ![1024, 1024]⟩
abbrev S16x1x1024 : Shape := ⟨3, ![16, 1, 1024]⟩
abbrev S1x1024x1024 : Shape := ⟨3, ![1, 1024, 1024]⟩
abbrev S1x1x1024 : Shape := ⟨3, ![1, 1, 1024]⟩
abbrev S1024x256 : Shape := ⟨2, ![1024, 256]⟩
abbrev S1x1x256 : Shape := ⟨3, ![1, 1, 256]⟩
abbrev S1x256 : Shape := ⟨2, ![1, 256]⟩
abbrev S256 : Shape := ⟨1, ![256]⟩
abbrev S1x1024x256 : Shape := ⟨3, ![1, 1024, 256]⟩
abbrev S256x1024 : Shape := ⟨2, ![256, 1024]⟩

abbrev nBuf : Space → Nat
  | .hbm => 16
  | .vmem => 10
  | .smem => 0
  | _ => 0

abbrev bufTy : (tb : Table) → Fin (tcTables nBuf tb) → BufTy
  | .hbm, ⟨0, _⟩ => ⟨S16x1024, .f32⟩
  | .hbm, ⟨1, _⟩ => ⟨S16x1024x1024, .f32⟩
  | .hbm, ⟨2, _⟩ => ⟨S1024x2048, .f32⟩
  | .hbm, ⟨3, _⟩ => ⟨S1024, .f32⟩
  | .hbm, ⟨4, _⟩ => ⟨S1x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S16x1024, .f32⟩
  | .hbm, ⟨9, _⟩ => ⟨S1x1024, .f32⟩
  | .hbm, ⟨10, _⟩ => ⟨S16x1024, .f32⟩
  | .hbm, ⟨11, _⟩ => ⟨S16x1024, .f32⟩
  | .hbm, ⟨12, _⟩ => ⟨S16x1x1024, .f32⟩
  | .hbm, ⟨13, _⟩ => ⟨S1024x1024, .f32⟩
  | .hbm, ⟨14, _⟩ => ⟨S16x1024x1024, .f32⟩
  | .hbm, ⟨15, _⟩ => ⟨S16x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S1024x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S1024x2048_S1024x1024_0_0 : S1024x2048.Slices ![0, 0] S1024x1024
  slices_S1024x2048_S1024x1024_0_1024 : S1024x2048.Slices ![0, 1024] S1024x1024
  transposes_S1024x1024_S1024x1024_1_0 : S1024x1024.Transposes [1, 0] S1024x1024
  bcast_S1024_S1x1024_1 : S1024.BroadcastsInDim S1x1024 (![1] : Fin 1 → Fin S1x1024.rank)
  bcast_S1x1024_S16x1024_0_1 : S1x1024.BroadcastsInDim S16x1024 (![0, 1] : Fin 2 → Fin S16x1024.rank)
  shapeCasts_S16x1024_S16x1x1024 : S16x1024.ShapeCasts S16x1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1024_S1024x256_0_0 : ∀ a, (![0, 0] : Fin 2 → Nat) a + S1024x256.size a ≤ S1024x1024.size a
  h_S1024x256 : 0 < S1024x256.numel
  shapeCasts_S1024x256_S1024x256 : S1024x256.ShapeCasts S1024x256
  inb_S1x1x1024_S1x1x256_0_0_0 : ∀ a, (![0, 0, 0] : Fin 3 → Nat) a + S1x1x256.size a ≤ S1x1x1024.size a
  h_S1x1x256 : 0 < S1x1x256.numel
  shapeCasts_S1x1x256_S1x256 : S1x1x256.ShapeCasts S1x256
  broadcasts_S1x256_S1024x256 : S1x256.Broadcasts S1024x256
  reduces_S1024x256_S256 : S1024x256.Reduces [0] S256
  shapeCasts_S256_S1x256 : S256.ShapeCasts S1x256
  inb_S1x1024x1024_S1x1024x256_0_0_0 : ∀ a, (![0, 0, 0] : Fin 3 → Nat) a + S1x1024x256.size a ≤ S1x1024x1024.size a
  h_S1x1024x256 : 0 < S1x1024x256.numel
  shapeCasts_S1x1024x256_S1024x256 : S1x1024x256.ShapeCasts S1024x256
  shapeCasts_S1024x256_S1x1024x256 : S1024x256.ShapeCasts S1x1024x256
  slices_S1024x1024_o0_0_S256x1024 : S1024x1024.Slices ![0, 0] S256x1024
  bitsLt_bf16_f32 : FTy.bits .bf16 < FTy.bits .f32
  inb_S1024x1024_S1024x256_0_256 : ∀ a, (![0, 256] : Fin 2 → Nat) a + S1024x256.size a ≤ S1024x1024.size a
  inb_S1x1x1024_S1x1x256_0_0_256 : ∀ a, (![0, 0, 256] : Fin 3 → Nat) a + S1x1x256.size a ≤ S1x1x1024.size a
  inb_S1x1024x1024_S1x1024x256_0_0_256 : ∀ a, (![0, 0, 256] : Fin 3 → Nat) a + S1x1024x256.size a ≤ S1x1024x1024.size a
  slices_S1024x1024_o256_0_S256x1024 : S1024x1024.Slices ![256, 0] S256x1024
  inb_S1024x1024_S1024x256_0_512 : ∀ a, (![0, 512] : Fin 2 → Nat) a + S1024x256.size a ≤ S1024x1024.size a
  inb_S1x1x1024_S1x1x256_0_0_512 : ∀ a, (![0, 0, 512] : Fin 3 → Nat) a + S1x1x256.size a ≤ S1x1x1024.size a
  inb_S1x1024x1024_S1x1024x256_0_0_512 : ∀ a, (![0, 0, 512] : Fin 3 → Nat) a + S1x1024x256.size a ≤ S1x1024x1024.size a
  slices_S1024x1024_o512_0_S256x1024 : S1024x1024.Slices ![512, 0] S256x1024
  inb_S1024x1024_S1024x256_0_768 : ∀ a, (![0, 768] : Fin 2 → Nat) a + S1024x256.size a ≤ S1024x1024.size a
  inb_S1x1x1024_S1x1x256_0_0_768 : ∀ a, (![0, 0, 768] : Fin 3 → Nat) a + S1x1x256.size a ≤ S1x1x1024.size a
  inb_S1x1024x1024_S1x1024x256_0_0_768 : ∀ a, (![0, 0, 768] : Fin 3 → Nat) a + S1x1024x256.size a ≤ S1x1024x1024.size a
  slices_S1024x1024_o768_0_S256x1024 : S1024x1024.Slices ![768, 0] S256x1024
  shapeCasts_S1024x1024_S1x1024x1024 : S1024x1024.ShapeCasts S1x1024x1024
  dot_S16x1024_S1024x1024_S16x1024_1_0_0_1_n_n_wf : DotDims.WF S16x1024 S1024x1024 S16x1024 [1] [0] [0] [1] [] []
  dot_S1024x1024_S1024x256_S1024x256_1_0_0_1_n_n_wf : DotDims.WF S1024x1024 S1024x256 S1024x256 [1] [0] [0] [1] [] []
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x1024x1024.size a
  hwx0_0 : ∀ i : grid0.Coords, EltTy.bits .f32 = 32 ∨ (Rect.block (s := S16x1024x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S16x1x1024.size a
  hwx0_2 : ∀ i : grid0.Coords, EltTy.bits .f32 = 32 ∨ (Rect.block (s := S16x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S16x1024x1024.size a
  hwx0_3 : ∀ i : grid0.Coords, EltTy.bits .f32 = 32 ∨ (Rect.block (s := S16x1024x1024) S1x1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S16x1024x1024.size a
  hwx0_4 : ∀ i : grid0.Coords, EltTy.bits .f32 = 32 ∨ (Rect.block (s := S16x1024x1024) S1x1024x1024.size (cc0_transform_4 i) (hinb0_4 i)).WholeWords (EltTy.packing .f32)

variable [Facts₀]

def dot_S16x1024_S1024x1024_S16x1024_1_0_0_1_n_n : DotDims S16x1024 S1024x1024 S16x1024 where
  lhsContracting := [1]
  rhsContracting := [0]
  lhsNonContracting := [0]
  rhsNonContracting := [1]
  lhsBatch := []
  rhsBatch := []
  wf := dot_S16x1024_S1024x1024_S16x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9_0) S1x1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9_1) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x1024 : Shape := ⟨2, ![16, 1024]⟩
abbrev S16x1024x1024 : Shape := ⟨3, ![16, 1024, 1024]⟩
abbrev S1024x2048 : Shape := ⟨2, ![1024, 2048]⟩
abbrev S1024 : Shape := ⟨1, ![1024]⟩
abbrev S1x1024 : Shape := ⟨2, ![1, 1024]⟩
abbrev S16x1x1024 : Shape := ⟨3, ![16, 1, 1024]⟩
abbrev S16x1024x2048 : Shape := ⟨3, ![16, 1024, 2048]⟩
abbrev S1x1x1024 : Shape := ⟨3, ![1, 1, 1024]⟩
abbrev S16x1024x1 : Shape := ⟨3, ![16, 1024, 1]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1024x1024, .f32⟩
  | .hbm, ⟨2, _⟩ => ⟨S1024x2048, .f32⟩
  | .hbm, ⟨3, _⟩ => ⟨S1024, .f32⟩
  | .hbm, ⟨4, _⟩ => ⟨S1x1024, .f32⟩
  | .hbm, ⟨5, _⟩ => ⟨S16x1x1024, .f32⟩
  | .hbm, ⟨6, _⟩ => ⟨S16x1024x1024, .f32⟩
  | .hbm, ⟨7, _⟩ => ⟨S16x1024x2048, .f32⟩
  | .hbm, ⟨8, _⟩ => ⟨S16x1024x1024, .f32⟩
  | .hbm, ⟨9, _⟩ => ⟨S1x1x1024, .f32⟩
  | .hbm, ⟨10, _⟩ => ⟨S16x1024x1024, .f32⟩
  | .hbm, ⟨11, _⟩ => ⟨S16x1024x1024, .f32⟩
  | .hbm, ⟨12, _⟩ => ⟨S16x1024x1024, .f32⟩
  | .hbm, ⟨13, _⟩ => ⟨S16x1024x1, .f32⟩
  | .hbm, ⟨14, _⟩ => ⟨S16x1024, .f32⟩
  | .hbm, ⟨15, _⟩ => ⟨S_, .f32⟩
  | .hbm, ⟨16, _⟩ => ⟨S16x1024, .f32⟩
  | .hbm, ⟨17, _⟩ => ⟨S_, .f32⟩
  | .hbm, ⟨18, _⟩ => ⟨S16x1024, .f32⟩
  | .hbm, ⟨19, _⟩ => ⟨S16x1024, .f32⟩
  | .hbm, ⟨20, _⟩ => ⟨S16x1x1024, .f32⟩
  | .hbm, ⟨21, _⟩ => ⟨S16x1024x1024, .f32⟩
  | .hbm, ⟨22, _⟩ => ⟨S16x1024x1024, .f32⟩
  | .hbm, ⟨23, _⟩ => ⟨S16x1024x1024, .f32⟩
  | .hbm, ⟨24, _⟩ => ⟨S_, .f32⟩
  | .hbm, ⟨25, _⟩ => ⟨S16x1024, .f32⟩
  | .hbm, ⟨26, _⟩ => ⟨S16x1x1024, .f32⟩
  | .hbm, ⟨27, _⟩ => ⟨S16x1024x1024, .f32⟩
  | .hbm, ⟨28, _⟩ => ⟨S16x1024x1024, .f32⟩
  | .hbm, ⟨29, _⟩ => ⟨S16x1024x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  bcast_S16x1024_S16x1x1024_0_2 : S16x1024.BroadcastsInDim S16x1x1024 (![0, 2] : Fin 2 → Fin S16x1x1024.rank)
  bcast_S16x1x1024_S16x1024x1024_0_1_2 : S16x1x1024.BroadcastsInDim S16x1024x1024 (![0, 1, 2] : Fin 3 → Fin S16x1024x1024.rank)
  concatenates_S16x1024x1024_S16x1024x1024_S16x1024x2048_d2 : Shape.Concatenates [S16x1024x1024, S16x1024x1024] S16x1024x2048 2
  bcast_S1024_S1x1x1024_2 : S1024.BroadcastsInDim S1x1x1024 (![2] : Fin 1 → Fin S1x1x1024.rank)
  bcast_S1x1x1024_S16x1024x1024_0_1_2 : S1x1x1024.BroadcastsInDim S16x1024x1024 (![0, 1, 2] : Fin 3 → Fin S16x1024x1024.rank)
  shapeCasts_S16x1024x1_S16x1024 : S16x1024x1.ShapeCasts S16x1024
  reducesTo_S16x1024x1024_S16x1024_d1 : S16x1024x1024.ReducesTo [1] S16x1024
  h_S_ : 0 < S_.numel
  bcast_S_S16x1024 : S_.BroadcastsInDim S16x1024 (![] : Fin 0 → Fin S16x1024.rank)
  dot_S16x1024x2048_S1024x2048_S16x1024x1024_2_1_01_0_n_n_wf : DotDims.WF S16x1024x2048 S1024x2048 S16x1024x1024 [2] [1] [0, 1] [0] [] []
  dot_S16x1024x1024_S1x1024_S16x1024x1_2_1_01_0_n_n_wf : DotDims.WF S16x1024x1024 S1x1024 S16x1024x1 [2] [1] [0, 1] [0] [] []
  dot_S16x1024x1024_S16x1024x1024_S16x1024x1024_2_1_1_2_0_0_wf : DotDims.WF S16x1024x1024 S16x1024x1024 S16x1024x1024 [2] [1] [1] [2] [0] [0]

variable [Facts₀]

def dot_S16x1024x2048_S1024x2048_S16x1024x1024_2_1_01_0_n_n : DotDims S16x1024x2048 S1024x2048 S16x1024x1024 where
  lhsContracting := [2]
  rhsContracting := [1]
  lhsNonContracting := [0, 1]
  rhsNonContracting := [0]
  lhsBatch := []
  rhsBatch := []
  wf := dot_S16x1024x2048_S1024x2048_S16x1024x1024_2_1_01_0_n_n_wf
def dot_S16x1024x1024_S1x1024_S16x1024x1_2_1_01_0_n_n : DotDims S16x1024x1024 S1x1024 S16x1024x1 where
  lhsContracting := [2]
  rhsContracting := [1]
  lhsNonContracting := [0, 1]
  rhsNonContracting := [0]
  lhsBatch := []
  rhsBatch := []
  wf := dot_S16x1024x1024_S1x1024_S16x1024x1_2_1_01_0_n_n_wf
def dot_S16x1024x1024_S16x1024x1024_S16x1024x1024_2_1_1_2_0_0 : DotDims S16x1024x1024 S16x1024x1024 S16x1024x1024 where
  lhsContracting := [2]
  rhsContracting := [1]
  lhsNonContracting := [1]
  rhsNonContracting := [2]
  lhsBatch := [0]
  rhsBatch := [0]
  wf := dot_S16x1024x1024_S16x1024x1024_S16x1024x1024_2_1_1_2_0_0_wf

class Facts : Prop extends Facts₀ where

variable [Facts]
-- ==== Proof.Softmax.lean ====
/-
  The specification: what both programs compute, as functions of the argument arrays read index by index on the
  extended reals. For a batch b, a sequence position s and a feature h,

    energy b h s   = tanh ( Σₖ enc[b,s,k] · W[h, 1024+k]  +  ( Σₖ ht[b,k] · W[h,k]  +  bias[h] ) ),
    weights[b,s,h] = exp (energy b h s − max over s' of energy b h s')  /  Σ over s' of exp (energy b h s' − that max),
    context[b,s,h] = Σₖ weights[b,s,k] · enc[b,k,h]:

  a softmax ALONG THE SEQUENCE AXIS of the additive-attention energies, then the weights applied to the encoder
  rows. The maximum is the fold of `max` from −∞ over the 1024 positions and the divisor the plain sum: no law
  beyond commutativity and associativity of + and max is needed to identify the two programs with these, so nothing
  here asks the inputs to be finite. The same functions are stated once more over ONE batch's blocks (the encoder
  rows of the batch, the transposed second half of W, the batch's row of the projected bias), which is what one grid
  point of the kernel sees.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The value every maximum starts from: the f32 pattern of −∞. -/
abbrev negInf : EReal := Ideal.ofBits .f32 0xFF800000#32

/-- −∞ is the bottom of the extended reals: a maximum against it is the other operand. -/
theorem max_negInf (x : EReal) : max negInf x = x := by
  show max (Ideal.ofBits .f32 0xFF800000#32) x = x
  simp [Ideal.ofBits, Ideal.ieee]

/-- The f32 zero pattern is the extended real 0. -/
theorem zero_eq : Ideal.ofBits .f32 0x00000000#32 = 0 := Ideal.ofBits_zero_f32

/-- The maximum of a column of 1024 energies, folded from −∞. -/
def colMax (E : Fin 1024 → EReal) : EReal := (Finset.univ : Finset (Fin 1024)).fold max negInf E

/-- The softmax of a column of 1024 energies, at position `s`. -/
def colSoftmax (E : Fin 1024 → EReal) (s : Fin 1024) : EReal :=
  Ideal.div (Ideal.exp (E s - colMax E)) (∑ s' : Fin 1024, Ideal.exp (E s' - colMax E))

/-- Column k of the first half of W's 2048 columns, -/
abbrev lo (k : Fin 1024) : Fin 2048 := ⟨k.val, by have := k.isLt; omega⟩
/-- and of the second half. -/
abbrev hi (k : Fin 1024) : Fin 2048 := ⟨1024 + k.val, by have := k.isLt; omega⟩

/-- The projected bias: the hidden state against the first half of W, plus the bias vector. -/
def projBias (ht : (⟨2, ![16, 1024]⟩ : Shape).Idx → EReal) (W : (⟨2, ![1024, 2048]⟩ : Shape).Idx → EReal)
    (bv : (⟨1, ![1024]⟩ : Shape).Idx → EReal) (b : Fin 16) (h : Fin 1024) : EReal :=
  (∑ k : Fin 1024, ht (ix2 b k) * W (ix2 h (lo k))) + bv (ix1 h)

/-- The energies of batch `b` and feature `h`, as a column over the sequence positions. -/
def energy (ht : (⟨2, ![16, 1024]⟩ : Shape).Idx → EReal) (enc : (⟨3, ![16, 1024, 1024]⟩ : Shape).Idx → EReal)
    (W : (⟨2, ![1024, 2048]⟩ : Shape).Idx → EReal) (bv : (⟨1, ![1024]⟩ : Shape).Idx → EReal)
    (b : Fin 16) (h : Fin 1024) (s : Fin 1024) : EReal :=
  Ideal.tanh ((∑ k : Fin 1024, enc (ix3 b s k) * W (ix2 h (hi k))) + projBias ht W bv b h)

/-- The attention weights: the softmax over the sequence axis. -/
def weights (ht : (⟨2, ![16, 1024]⟩ : Shape).Idx → EReal) (enc : (⟨3, ![16, 1024, 1024]⟩ : Shape).Idx → EReal)
    (W : (⟨2, ![1024, 2048]⟩ : Shape).Idx → EReal) (bv : (⟨1, ![1024]⟩ : Shape).Idx → EReal) :
    (⟨3, ![16, 1024, 1024]⟩ : Shape).Idx → EReal :=
  fun i => colSoftmax (energy ht enc W bv (i 0) (i 2)) (i 1)

/-- The context: the weights of a row applied to the batch's encoder rows. -/
def context (ht : (⟨2, ![16, 1024]⟩ : Shape).Idx → EReal) (enc : (⟨3, ![16, 1024, 1024]⟩ : Shape).Idx → EReal)
    (W : (⟨2, ![1024, 2048]⟩ : Shape).Idx → EReal) (bv : (⟨1, ![1024]⟩ : Shape).Idx → EReal) :
    (⟨3, ![16, 1024, 1024]⟩ : Shape).Idx → EReal :=
  fun i => ∑ k : Fin 1024, weights ht enc W bv (ix3 (i 0) (i 1) k) * enc (ix3 (i 0) k (i 2))

/-! ## The same over one batch's blocks -/

/-- One batch's energies from its blocks: `x0` the batch's encoder rows, `x1` the transposed second half of W,
    `x2` the batch's row of the projected bias. -/
def blkEnergy (x0 : (⟨3, ![1, 1024, 1024]⟩ : Shape).Idx → EReal) (x1 : (⟨2, ![1024, 1024]⟩ : Shape).Idx → EReal)
    (x2 : (⟨3, ![1, 1, 1024]⟩ : Shape).Idx → EReal) (h : Fin 1024) (s : Fin 1024) : EReal :=
  Ideal.tanh ((∑ k : Fin 1024, x0 (ix3 0 s k) * x1 (ix2 k h)) + x2 (ix3 0 0 h))

/-- One batch's weights. -/
def blkWeights (x0 : (⟨3, ![1, 1024, 1024]⟩ : Shape).Idx → EReal) (x1 : (⟨2, ![1024, 1024]⟩ : Shape).Idx → EReal)
    (x2 : (⟨3, ![1, 1, 1024]⟩ : Shape).Idx → EReal) : (⟨3, ![1, 1024, 1024]⟩ : Shape).Idx → EReal :=
  fun y => colSoftmax (blkEnergy x0 x1 x2 (y 2)) (y 1)

/-- One batch's context. -/
def blkContext (x0 : (⟨3, ![1, 1024, 1024]⟩ : Shape).Idx → EReal) (x1 : (⟨2, ![1024, 1024]⟩ : Shape).Idx → EReal)
    (x2 : (⟨3, ![1, 1, 1024]⟩ : Shape).Idx → EReal) : (⟨3, ![1, 1024, 1024]⟩ : Shape).Idx → EReal :=
  fun y => ∑ k : Fin 1024, blkWeights x0 x1 x2 (ix3 0 (y 1) k) * x0 (ix3 0 k (y 2))

/-! ## A batch's blocks against the arrays -/

section Blocks

variable (ht : (⟨2, ![16, 1024]⟩ : Shape).Idx → EReal) (enc : (⟨3, ![16, 1024, 1024]⟩ : Shape).Idx → EReal)
  (W : (⟨2, ![1024, 2048]⟩ : Shape).Idx → EReal) (bv : (⟨1, ![1024]⟩ : Shape).Idx → EReal) (b : Fin 16)
  (x0 : (⟨3, ![1, 1024, 1024]⟩ : Shape).Idx → EReal) (x1 : (⟨2, ![1024, 1024]⟩ : Shape).Idx → EReal)
  (x2 : (⟨3, ![1, 1, 1024]⟩ : Shape).Idx → EReal)
  (h0 : ∀ s k : Fin 1024, x0 (ix3 (0 : Fin 1) s k) = enc (ix3 b s k))
  (h1 : ∀ k h : Fin 1024, x1 (ix2 k h) = W (ix2 h (hi k)))
  (h2 : ∀ h : Fin 1024, x2 (ix3 (0 : Fin 1) (0 : Fin 1) h) = projBias ht W bv b h)

include h0 h1 h2

/-- When the three blocks are batch `b`'s encoder rows, the transposed second half of W, and the batch's row of
    the projected bias, the block's energies are the batch's. -/
theorem blkEnergy_eq (h : Fin 1024) : blkEnergy x0 x1 x2 h = energy ht enc W bv b h := by
  funext s
  unfold blkEnergy energy
  simp only [h0, h1, h2]

/-- So the block's weights are the batch's rows of the weights, -/
theorem blkWeights_eq (s h : Fin 1024) :
    blkWeights x0 x1 x2 (ix3 (0 : Fin 1) s h) = weights ht enc W bv (ix3 b s h) := by
  show colSoftmax (blkEnergy x0 x1 x2 h) s = colSoftmax (energy ht enc W bv b h) s
  rw [blkEnergy_eq ht enc W bv b x0 x1 x2 h0 h1 h2]

/-- and the block's context the batch's rows of the context. -/
theorem blkContext_eq (s h : Fin 1024) :
    blkContext x0 x1 x2 (ix3 (0 : Fin 1) s h) = context ht enc W bv (ix3 b s h) := by
  show ∑ k : Fin 1024, blkWeights x0 x1 x2 (ix3 (0 : Fin 1) s k) * x0 (ix3 (0 : Fin 1) k h)
    = ∑ k : Fin 1024, weights ht enc W bv (ix3 b s k) * enc (ix3 b k h)
  simp only [blkWeights_eq ht enc W bv b x0 x1 x2 h0 h1 h2, h0]

end Blocks

end Cert.Attn

end
-- ==== Proof.ChunkBody.lean ====
/-
  One chunk of the kernel's body, read at an index on the extended reals. The body cuts the 1024 features into four
  runs of 256 columns; for each run it multiplies the batch's encoder rows by the run's columns of the transposed
  weights, adds the run's part of the projected bias, takes tanh, and normalises every COLUMN over the 1024 sequence
  positions: the column's maximum (a fold of max from −∞), the exponentials of the differences, their sum, the
  quotient. At a row s and a column j of the run this is the column softmax of
      s' ↦ tanh ( Σₖ enc[s',k] · w[k,j] + bias[j] ).
  The four runs' payloads are one term of (encoder rows, the run's weight columns, the run's bias entries).
-/
import proofs.«168176_j70007966925198_2_alg».proof.Proof.Gen.KernelIdeal.Skeleton
import proofs.«168176_j70007966925198_2_alg».proof.Proof.Softmax
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Chunk

open Cert.KernelIdeal Cert.KernelIdeal.Gen Idealize.ShloMosaic Idealize.ShloMosaic.ValueIdx Cert.Attn

/-- The first product's dimension numbers: rows × contraction against contraction × columns. -/
abbrev dP : DotDims S1024x1024 S1024x256 S1024x256 := dot_S1024x1024_S1024x256_S1024x256_1_0_0_1_n_n

theorem lhsP_0 (i : S1024x256.Idx) (q : dP.contr.Idx) : (dP.lhsIdx i q 0).val = (i 0).val := by
  unfold DotDims.lhsIdx
  rw [dif_neg (show ¬(0 : Fin S1024x1024.rank) ∈ dP.lhsBatch by decide), dif_pos (show (0 : Fin S1024x1024.rank) ∈ dP.lhsNonContracting by decide)]
  rfl
theorem lhsP_1 (i : S1024x256.Idx) (q : dP.contr.Idx) : (dP.lhsIdx i q 1).val = (q ⟨0, by decide⟩).val :=
  dP.lhsIdx_val_of_single rfl i q
theorem rhsP_0 (i : S1024x256.Idx) (q : dP.contr.Idx) : (dP.rhsIdx i q 0).val = (q ⟨0, by decide⟩).val :=
  dP.rhsIdx_val_of_single rfl i q
theorem rhsP_1 (i : S1024x256.Idx) (q : dP.contr.Idx) : (dP.rhsIdx i q 1).val = (i 1).val := by
  unfold DotDims.rhsIdx
  rw [dif_neg (show ¬(1 : Fin S1024x256.rank) ∈ dP.rhsBatch by decide), dif_pos (show (1 : Fin S1024x256.rank) ∈ dP.rhsNonContracting by decide)]
  rfl

/-- The product into a zero accumulator, at row s and column j: the sum over the 1024 contracted positions. -/
theorem proj_apply (v1 : FVec Ideal S1024x1024 .f32) (w : FVec Ideal S1024x256 .f32) (s : Fin 1024) (j : Fin 256) :
    matmul dP (some .fp32) v1 w (constant (F := Ideal) S1024x256 .f32 0x00000000#32) (ix2 s j)
      = ∑ k : Fin 1024, v1 (ix2 s k) * w (ix2 k j) := by
  simp only [matmul]
  rw [Ideal.matmul_constant_zero_apply, ← Equiv.sum_comp (contrEquiv1 dP 1024 rfl rfl).symm]
  refine Finset.sum_congr rfl fun k _ => ?_
  have hk := contrEquiv1_symm_val dP 1024 rfl rfl k
  have el : dP.lhsIdx (ix2 s j) ((contrEquiv1 dP 1024 rfl rfl).symm k) = ix2 s k := funext fun a => Fin.ext (by
    match a with
    | ⟨0, _⟩ => exact lhsP_0 _ _
    | ⟨1, _⟩ => exact (lhsP_1 _ _).trans hk)
  have er : dP.rhsIdx (ix2 s j) ((contrEquiv1 dP 1024 rfl rfl).symm k) = ix2 k j := funext fun a => Fin.ext (by
    match a with
    | ⟨0, _⟩ => exact (rhsP_0 _ _).trans hk
    | ⟨1, _⟩ => exact rhsP_1 _ _)
  rw [el, er]

/-- One run's energies: the product plus the run's bias entries broadcast down the rows, through tanh. -/
def chunkEnergy (v1 : FVec Ideal S1024x1024 .f32) (w : FVec Ideal S1024x256 .f32) (bb : FVec Ideal S1x1x256 .f32) :
    FVec Ideal S1024x256 .f32 :=
  tanh (addf (matmul dP (some .fp32) v1 (shapeCast S1024x256 w shapeCasts_S1024x256_S1024x256)
      (constant (F := Ideal) S1024x256 .f32 0x00000000#32))
    (broadcastTo S1024x256 (shapeCast S1x256 bb shapeCasts_S1x1x256_S1x256) broadcasts_S1x256_S1024x256))

theorem chunkEnergy_apply (v1 : FVec Ideal S1024x1024 .f32) (w : FVec Ideal S1024x256 .f32) (bb : FVec Ideal S1x1x256 .f32)
    (s : Fin 1024) (j : Fin 256) :
    chunkEnergy v1 w bb (ix2 s j)
      = Ideal.tanh ((∑ k : Fin 1024, v1 (ix2 s k) * w (ix2 k j)) + bb (ix3 (0 : Fin 1) (0 : Fin 1) j)) := by
  unfold chunkEnergy
  show Ideal.tanh (matmul dP (some .fp32) v1 (shapeCast S1024x256 w shapeCasts_S1024x256_S1024x256)
      (constant (F := Ideal) S1024x256 .f32 0x00000000#32) (ix2 s j)
    + broadcastTo S1024x256 (shapeCast S1x256 bb shapeCasts_S1x1x256_S1x256) broadcasts_S1x256_S1024x256 (ix2 s j)) = _
  rw [proj_apply, shapeCast_self, broadcastTo_1b_ab_apply, shapeCast_1ab_ab_apply]

/-- A run's normalisation: every column's maximum over the rows, the exponentials of the differences, the column's
    sum of them, the quotient. The reductions' side conditions are hypotheses, typed as the library reads them. -/
def chunkSoftmax (T : FVec Ideal S1024x256 .f32) (hφ : FKind.Formats .f32)
    (hmax : (0xFF800000#32 : BitVec FTy.f32.bits) = FKind.maximumf.neutral .f32 hφ)
    (hadd : (0x00000000#32 : BitVec FTy.f32.bits) = FKind.add.neutral .f32 hφ) : FVec Ideal S1024x256 .f32 :=
  divf
    (exp (subf T (broadcastTo S1024x256 (shapeCast S1x256
      (multiReduction (F := Ideal) .maximumf [0] S256 T 0xFF800000#32 reduces_S1024x256_S256 hφ hmax)
      shapeCasts_S256_S1x256) broadcasts_S1x256_S1024x256)))
    (broadcastTo S1024x256 (shapeCast S1x256
      (multiReduction (F := Ideal) .add [0] S256
        (exp (subf T (broadcastTo S1024x256 (shapeCast S1x256
          (multiReduction (F := Ideal) .maximumf [0] S256 T 0xFF800000#32 reduces_S1024x256_S256 hφ hmax)
          shapeCasts_S256_S1x256) broadcasts_S1x256_S1024x256)))
        0x00000000#32 reduces_S1024x256_S256 hφ hadd)
      shapeCasts_S256_S1x256) broadcasts_S1x256_S1024x256)

/-- The index a reduction over the rows inserts: column j with row k put back is (k, j). -/
theorem lift_eq (j : Fin 256) (k : Fin 1024) : reduces_S1024x256_S256.lift (ix1 j) k = ix2 k j :=
  funext fun a => Fin.ext (by match a with | ⟨0, _⟩ => rfl | ⟨1, _⟩ => rfl)

/-- The column maximum broadcast back down the rows reads, at any row, the fold of max over the column. -/
theorem colmax_apply (T : FVec Ideal S1024x256 .f32) (hφ : FKind.Formats .f32)
    (hmax : (0xFF800000#32 : BitVec FTy.f32.bits) = FKind.maximumf.neutral .f32 hφ) (s : Fin 1024) (j : Fin 256) :
    broadcastTo S1024x256 (shapeCast S1x256
      (multiReduction (F := Ideal) .maximumf [0] S256 T 0xFF800000#32 reduces_S1024x256_S256 hφ hmax)
      shapeCasts_S256_S1x256) broadcasts_S1x256_S1024x256 (ix2 s j)
      = colMax (fun s' => T (ix2 s' j)) := by
  rw [broadcastTo_1b_ab_apply, shapeCast_a_1a_apply, Ideal.multiReduction_maximumf_single]
  show Finset.fold max negInf (fun k : Fin 1024 => T (reduces_S1024x256_S256.lift (ix1 j) k)) Finset.univ
    = Finset.fold max negInf (fun s' : Fin 1024 => T (ix2 s' j)) Finset.univ
  simp only [lift_eq]

theorem chunkSoftmax_apply (T : FVec Ideal S1024x256 .f32) (hφ : FKind.Formats .f32)
    (hmax : (0xFF800000#32 : BitVec FTy.f32.bits) = FKind.maximumf.neutral .f32 hφ)
    (hadd : (0x00000000#32 : BitVec FTy.f32.bits) = FKind.add.neutral .f32 hφ) (s : Fin 1024) (j : Fin 256) :
    chunkSoftmax T hφ hmax hadd (ix2 s j) = colSoftmax (fun s' => T (ix2 s' j)) s := by
  unfold chunkSoftmax colSoftmax
  show Ideal.div (Ideal.exp (T (ix2 s j) - broadcastTo S1024x256 _ broadcasts_S1x256_S1024x256 (ix2 s j)))
    (broadcastTo S1024x256 _ broadcasts_S1x256_S1024x256 (ix2 s j)) = _
  rw [colmax_apply, broadcastTo_1b_ab_apply, shapeCast_a_1a_apply, Ideal.multiReduction_add_single]
  refine congrArg (Ideal.div _) (Finset.sum_congr rfl fun k _ => ?_)
  rw [lift_eq j k]
  exact congrArg (fun mx => Ideal.exp (T (ix2 k j) - mx)) (colmax_apply T hφ hmax k j)

/-- The four runs' weights are this one term of the encoder rows, the run's weight columns and the run's bias entries. -/
theorem pay9_eq (v1 : FVec Ideal S1024x1024 .f32) (w : FVec Ideal S1024x256 .f32) (bb : FVec Ideal S1x1x256 .f32) :
    k0_pay9 (F := Ideal) v1 w bb = chunkSoftmax (chunkEnergy v1 w bb) (.inl rfl) rfl rfl := rfl
theorem pay6_eq (v0 : FVec Ideal S1x1024x1024 .f32) (w : FVec Ideal S1024x256 .f32) (bb : FVec Ideal S1x1x256 .f32) :
    k0_pay6 (F := Ideal) v0 w bb = chunkSoftmax (chunkEnergy (k0_pay4 v0) w bb) (.inl rfl) rfl rfl := rfl
theorem pay14_eq (v1 : FVec Ideal S1024x1024 .f32) (w : FVec Ideal S1024x256 .f32) (bb : FVec Ideal S1x1x256 .f32) :
    k0_pay14 (F := Ideal) (k0_pay12 v1 w) (k0_pay13 bb) = chunkSoftmax (chunkEnergy v1 w bb) (.inl rfl) rfl rfl := rfl
theorem pay17_eq (v1 : FVec Ideal S1024x1024 .f32) (w : FVec Ideal S1024x256 .f32) (bb : FVec Ideal S1x1x256 .f32) :
    k0_pay17 (F := Ideal) v1 w bb = chunkSoftmax (chunkEnergy v1 w bb) (.inl rfl) rfl rfl := rfl

/-- So a run's weights at row s and column j of the run are the column softmax of the run's energies. -/
theorem chunk_apply (v1 : FVec Ideal S1024x1024 .f32) (w : FVec Ideal S1024x256 .f32) (bb : FVec Ideal S1x1x256 .f32)
    (s : Fin 1024) (j : Fin 256) :
    chunkSoftmax (chunkEnergy v1 w bb) (.inl rfl) rfl rfl (ix2 s j)
      = colSoftmax (fun s' => Ideal.tanh ((∑ k : Fin 1024, v1 (ix2 s' k) * w (ix2 k j)) + bb (ix3 (0 : Fin 1) (0 : Fin 1) j))) s := by
  refine (chunkSoftmax_apply (chunkEnergy v1 w bb) (.inl rfl) rfl rfl s j).trans ?_
  simp only [chunkEnergy_apply]

/-! ## The accumulator -/

/-- The second product's dimension numbers. -/
abbrev dC : DotDims S1024x256 S256x1024 S1024x1024 := dot_S1024x256_S256x1024_S1024x1024_1_0_0_1_n_n

theorem lhsC_0 (i : S1024x1024.Idx) (q : dC.contr.Idx) : (dC.lhsIdx i q 0).val = (i 0).val := by
  unfold DotDims.lhsIdx
  rw [dif_neg (show ¬(0 : Fin S1024x256.rank) ∈ dC.lhsBatch by decide), dif_pos (show (0 : Fin S1024x256.rank) ∈ dC.lhsNonContracting by decide)]
  rfl
theorem lhsC_1 (i : S1024x1024.Idx) (q : dC.contr.Idx) : (dC.lhsIdx i q 1).val = (q ⟨0, by decide⟩).val :=
  dC.lhsIdx_val_of_single rfl i q
theorem rhsC_0 (i : S1024x1024.Idx) (q : dC.contr.Idx) : (dC.rhsIdx i q 0).val = (q ⟨0, by decide⟩).val :=
  dC.rhsIdx_val_of_single rfl i q
theorem rhsC_1 (i : S1024x1024.Idx) (q : dC.contr.Idx) : (dC.rhsIdx i q 1).val = (i 1).val := by
  unfold DotDims.rhsIdx
  rw [dif_neg (show ¬(1 : Fin S256x1024.rank) ∈ dC.rhsBatch by decide), dif_pos (show (1 : Fin S256x1024.rank) ∈ dC.rhsNonContracting by decide)]
  rfl

/-- The second product into a zero accumulator, at row s and column h: the sum over the run's 256 positions. The
    operands are in the sixteen-bit format, which on the extended reals is the same value. -/
theorem ctx_apply (a : FVec Ideal S1024x256 .bf16) (r : FVec Ideal S256x1024 .bf16) (s h : Fin 1024) :
    matmul dC none a r (constant (F := Ideal) S1024x1024 .f32 0x00000000#32) (ix2 s h)
      = ∑ k : Fin 256, a (ix2 s k) * r (ix2 k h) := by
  simp only [matmul]
  rw [Ideal.matmul_constant_zero_apply, ← Equiv.sum_comp (contrEquiv1 dC 256 rfl rfl).symm]
  refine Finset.sum_congr rfl fun k _ => ?_
  have hk := contrEquiv1_symm_val dC 256 rfl rfl k
  have el : dC.lhsIdx (ix2 s h) ((contrEquiv1 dC 256 rfl rfl).symm k) = ix2 s k := funext fun a => Fin.ext (by
    match a with
    | ⟨0, _⟩ => exact lhsC_0 _ _
    | ⟨1, _⟩ => exact (lhsC_1 _ _).trans hk)
  have er : dC.rhsIdx (ix2 s h) ((contrEquiv1 dC 256 rfl rfl).symm k) = ix2 k h := funext fun a => Fin.ext (by
    match a with
    | ⟨0, _⟩ => exact (rhsC_0 _ _).trans hk
    | ⟨1, _⟩ => exact rhsC_1 _ _)
  rw [el, er]

/-- One step of the accumulator: what the scratch held, plus a run's weights against encoder rows o … o+255. -/
def accStep (o : Nat) (hs : S1024x1024.Slices ![o, 0] S256x1024) (v1 : FVec Ideal S1024x1024 .f32)
    (A : FVec Ideal S1024x256 .f32) (acc : FVec Ideal S1024x1024 .f32) : FVec Ideal S1024x1024 .f32 :=
  shapeCast S1024x1024 (addf acc (matmul dC none (truncf .bf16 A bitsLt_bf16_f32)
    (truncf .bf16 (extractStridedSlice S256x1024 ![o, 0] v1 hs) bitsLt_bf16_f32)
    (constant (F := Ideal) S1024x1024 .f32 0x00000000#32))) shapeCasts_S1024x1024_S1024x1024

theorem accStep_apply (o : Nat) (ho : o + 256 ≤ 1024) (hs : S1024x1024.Slices ![o, 0] S256x1024)
    (v1 : FVec Ideal S1024x1024 .f32) (A : FVec Ideal S1024x256 .f32) (acc : FVec Ideal S1024x1024 .f32) (s h : Fin 1024) :
    accStep o hs v1 A acc (ix2 s h)
      = acc (ix2 s h) + ∑ k : Fin 256, A (ix2 s k) * v1 (ix2 (⟨o + k.val, by have := k.isLt; omega⟩ : Fin 1024) h) := by
  unfold accStep
  rw [shapeCast_self]
  show acc (ix2 s h) + matmul dC none (truncf .bf16 A bitsLt_bf16_f32)
    (truncf .bf16 (extractStridedSlice S256x1024 ![o, 0] v1 hs) bitsLt_bf16_f32)
    (constant (F := Ideal) S1024x1024 .f32 0x00000000#32) (ix2 s h) = _
  rw [ctx_apply]
  refine congrArg (acc (ix2 s h) + ·) (Finset.sum_congr rfl fun k _ => ?_)
  show A (ix2 s k) * extractStridedSlice S256x1024 ![o, 0] v1 hs (ix2 k h) = _
  rw [slice2_axis0_apply o v1 hs k h ⟨o + k.val, by have := k.isLt; omega⟩ rfl]

theorem pay8_eq (v0 : FVec Ideal S1x1024x1024 .f32) (w : FVec Ideal S1024x256 .f32) (bb : FVec Ideal S1x1x256 .f32)
    (acc : FVec Ideal S1024x1024 .f32) :
    k0_pay8 (F := Ideal) v0 w bb acc = accStep 0 slices_S1024x1024_o0_0_S256x1024 (k0_pay4 v0) (k0_pay6 v0 w bb) acc := rfl
theorem pay11_eq (v1 : FVec Ideal S1024x1024 .f32) (w : FVec Ideal S1024x256 .f32) (bb : FVec Ideal S1x1x256 .f32)
    (acc : FVec Ideal S1024x1024 .f32) :
    k0_pay11 (F := Ideal) v1 w bb acc = accStep 256 slices_S1024x1024_o256_0_S256x1024 v1 (k0_pay9 v1 w bb) acc := rfl
theorem pay16_eq (v1 : FVec Ideal S1024x1024 .f32) (v68 v69 : FVec Ideal S1024x256 .f32) (acc : FVec Ideal S1024x1024 .f32) :
    k0_pay16 (F := Ideal) v1 v68 v69 acc = accStep 512 slices_S1024x1024_o512_0_S256x1024 v1 (k0_pay14 v68 v69) acc := rfl
theorem pay2_eq (v1 : FVec Ideal S1024x1024 .f32) (A : FVec Ideal S1024x256 .f32) (acc : FVec Ideal S1024x1024 .f32) :
    k0_pay2 (F := Ideal) v1 A acc = accStep 768 slices_S1024x1024_o768_0_S256x1024 v1 A acc := rfl

/-- The scratch's first contents: zero everywhere. -/
theorem pay5_apply (i : S1024x1024.Idx) : k0_pay5 (F := Ideal) i = 0 := by
  unfold k0_pay5
  rw [shapeCast_self]
  exact Ideal.ofBits_zero_f32

/-- The batch's encoder rows without the block's leading unit axis. -/
theorem pay4_apply (v0 : FVec Ideal S1x1024x1024 .f32) (s k : Fin 1024) :
    k0_pay4 (F := Ideal) v0 (ix2 s k) = v0 (ix3 (0 : Fin 1) s k) := by
  unfold k0_pay4
  exact shapeCast_1ab_ab_apply v0 _ s k

end Cert.KernelIdeal.Chunk

end
-- ==== Proof.LibCovered.lean ====
/-
  Two general facts about reading a staging buffer back, stated over an abstract view and value type.

  A body that keeps an accumulator in a scratch buffer stores the WHOLE buffer again and again, and loads the whole
  buffer between the stores. What such a load reads is what the latest store wrote, whatever the earlier stores
  were: the latest store's rectangle is the whole buffer at zero offsets, so it covers every index the load asks for.
  And a load of a PART of a buffer — a unit-stride rectangle at some offsets — reads the contents at offset + index.
-/
import Idealize.ShloMosaic.Lib.Pipeline.Value

noncomputable section

namespace Idealize.ShloMosaic.View

variable {Val : EltTy → Type} {S : Shape} {e : EltTy}

/-- A load of the whole buffer (the unit rectangle of the buffer's own sizes at zero offsets, however the zeros
    are spelt) after a list of stores whose LATEST is a store of the whole buffer reads that store's payload. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

/-- A load through a unit-stride rectangle reads the contents at offset + index, coordinate by coordinate: the
    caller names the index `k` read and owes one equation per axis. -/
theorem ld_unit_apply {off size : Fin S.rank → Nat} (inb : ∀ a, off a + size a ≤ S.size a) (X : S.Idx → Val e)
    (x : (Rect.unit off size inb).shape.Idx) (k : S.Idx) (hk : ∀ a, (k a).val = off a + (x a).val) :
    View.ld X (Rect.unit off size inb) x = X k := by
  show X ((Rect.unit off size inb).idx x) = X k
  exact congrArg X (funext fun a => Fin.ext (by
    show off a + 1 * (x a).val = (k a).val
    rw [hk a, Nat.one_mul]))

end Idealize.ShloMosaic.View

end
-- ==== Proof.SumSplit.lean ====
/-
  Two ways of cutting a finite sum into consecutive runs of its index, in any commutative monoid: nothing here
  is about floats. The extended reals are such a monoid (their addition is commutative and associative even at the
  infinities), so these hold of the sums a contraction at the ideal values is.
-/
import Mathlib.Algebra.BigOperators.Fin

namespace Cert.SumSplit

variable {M : Type*} [AddCommMonoid M]

/-- A sum over `Fin n` is the sum of its first `a` terms plus the sum of the remaining `b`, when `a + b = n`. -/
theorem sum_split (a b n : ℕ) (h : a + b = n) (f : Fin n → M) :
    ∑ k : Fin n, f k
      = ∑ k : Fin a, f ⟨k.val, by have := k.isLt; omega⟩ + ∑ k : Fin b, f ⟨a + k.val, by have := k.isLt; omega⟩ := by
  subst h
  rw [Fin.sum_univ_add]
  rfl

/-- A sum of 1024 terms is the left-nested sum, from zero, of its four consecutive runs of 256: the order in which
    an accumulator that starts at zero and is added into once per run builds it. -/
theorem sum_chunks4 (g : Fin 1024 → M) :
    ∑ k : Fin 1024, g k
      = (((0 + ∑ k : Fin 256, g ⟨k.val, by have := k.isLt; omega⟩)
          + ∑ k : Fin 256, g ⟨256 + k.val, by have := k.isLt; omega⟩)
          + ∑ k : Fin 256, g ⟨512 + k.val, by have := k.isLt; omega⟩)
          + ∑ k : Fin 256, g ⟨768 + k.val, by have := k.isLt; omega⟩ := by
  rw [sum_split 768 256 1024 rfl g,
    sum_split 512 256 768 rfl (fun k => g ⟨k.val, by have := k.isLt; omega⟩),
    sum_split 256 256 512 rfl (fun k : Fin 512 => g ⟨k.val, by have := k.isLt; omega⟩), zero_add]

end Cert.SumSplit
-- ==== Proof.BodyValue.lean ====
/-
  What one grid point's body leaves in its two output blocks, as functions of its three input blocks (the batch's
  encoder rows x0, the transposed second half of the weights x1, the batch's row of the projected bias x2).

  The weights block is written in four stores, one per run of 256 features; each store's payload is the column
  softmax of that run's energies, which is the block's weights function restricted to the run's columns — so the four
  pieces read back as that one function. The context block is one store of the scratch accumulator, which was zeroed
  and then added into once per run: zero plus, run by run, the run's weights against the encoder rows the run names.
  Since the features of a run are also the encoder ROWS it contracts with (the sequence length equals the feature
  count), the four partial sums are the four consecutive quarters of the one sum over all 1024 positions.
-/
import proofs.«168176_j70007966925198_2_alg».proof.Proof.Gen.KernelIdeal.Frame
import proofs.«168176_j70007966925198_2_alg».proof.Proof.ChunkBody
import proofs.«168176_j70007966925198_2_alg».proof.Proof.LibCovered
import proofs.«168176_j70007966925198_2_alg».proof.Proof.SumSplit
import Idealize.ShloMosaic.Lib.Tactic

set_option maxRecDepth 16384

noncomputable section

namespace Cert.KernelIdeal.Body

open Cert.KernelIdeal Cert.KernelIdeal.Gen Cert.KernelIdeal.Chunk Idealize.ShloMosaic Idealize.ShloMosaic.TcCoe
open Idealize.ShloMosaic.Tactic Idealize.ShloMosaic.ValueIdx Idealize.SL.Sem Cert.Attn

theorem hz3 : (![0, 0, 0] : Fin 3 → Nat) = fun _ => 0 := funext fun a => by fin_cases a <;> rfl
theorem hz2 : (![0, 0] : Fin 2 → Nat) = fun _ => 0 := funext fun a => by fin_cases a <;> rfl

/-- A run's weights, fed the weight columns and bias entries loaded at lane offset `o`, are the block's weights at
    the columns o … o+255: the loads read x1 and x2 at offset + index. -/
theorem chunk_weights (o : Nat) (ho : o + 256 ≤ 1024)
    (inb2 : ∀ a, (![0, o] : Fin 2 → Nat) a + S1024x256.size a ≤ S1024x1024.size a)
    (inb3 : ∀ a, (![0, 0, o] : Fin 3 → Nat) a + S1x1x256.size a ≤ S1x1x1024.size a)
    (x0 : Vec Ideal S1x1024x1024 .f32) (x1 : Vec Ideal S1024x1024 .f32) (x2 : Vec Ideal S1x1x1024 .f32)
    (s : Fin 1024) (j : Fin 256) :
    chunkSoftmax (chunkEnergy (k0_pay4 x0) (View.ld (Val := Elt Ideal) (e' := .f32) x1 (Rect.unit (s := S1024x1024) ![0, o] S1024x256.size inb2))
        (View.ld (Val := Elt Ideal) (e' := .f32) x2 (Rect.unit (s := S1x1x1024) ![0, 0, o] S1x1x256.size inb3))) (.inl rfl) rfl rfl (ix2 s j)
      = blkWeights x0 x1 x2 (ix3 (0 : Fin 1) s (⟨o + j.val, by have := j.isLt; omega⟩ : Fin 1024)) := by
  refine (chunk_apply _ _ _ s j).trans ?_
  unfold blkWeights
  show colSoftmax _ s = colSoftmax (blkEnergy x0 x1 x2 ⟨o + j.val, _⟩) s
  refine congrArg (fun E => colSoftmax E s) (funext fun s' => ?_)
  unfold blkEnergy
  refine congrArg Ideal.tanh ?_
  have hb : View.ld (Val := Elt Ideal) (e' := .f32) x2 (Rect.unit (s := S1x1x1024) ![0, 0, o] S1x1x256.size inb3) (ix3 (0 : Fin 1) (0 : Fin 1) j)
      = x2 (ix3 (0 : Fin 1) (0 : Fin 1) (⟨o + j.val, by have := j.isLt; omega⟩ : Fin 1024)) :=
    View.ld_unit_apply (Val := Elt Ideal) (e := .f32) inb3 x2 _ _ (fun a => by match a with | ⟨0, _⟩ => rfl | ⟨1, _⟩ => rfl | ⟨2, _⟩ => rfl)
  rw [hb]
  refine congrArg (· + _) (Finset.sum_congr rfl fun k _ => ?_)
  rw [pay4_apply]
  refine congrArg (_ * ·) ?_
  exact View.ld_unit_apply (Val := Elt Ideal) (e := .f32) inb2 x1 _ _ (fun a => by
    match a with
    | ⟨0, _⟩ => exact (Nat.zero_add _).symm
    | ⟨1, _⟩ => rfl)

/-- A stored piece of the weights block: the run's weights with the block's leading unit axis put back, at the
    piece's own index, are the block's weights at the index the piece's rectangle places it. -/
theorem piece_eq (o : Nat) (ho : o + 256 ≤ 1024)
    (inb2 : ∀ a, (![0, o] : Fin 2 → Nat) a + S1024x256.size a ≤ S1024x1024.size a)
    (inb3 : ∀ a, (![0, 0, o] : Fin 3 → Nat) a + S1x1x256.size a ≤ S1x1x1024.size a)
    (inbO : ∀ a, (![0, 0, o] : Fin 3 → Nat) a + S1x1024x256.size a ≤ S1x1024x1024.size a)
    (x0 : Vec Ideal S1x1024x1024 .f32) (x1 : Vec Ideal S1024x1024 .f32) (x2 : Vec Ideal S1x1x1024 .f32)
    (x : S1x1024x256.Idx) :
    shapeCast S1x1024x256 (chunkSoftmax (chunkEnergy (k0_pay4 x0) (View.ld (Val := Elt Ideal) (e' := .f32) x1 (Rect.unit (s := S1024x1024) ![0, o] S1024x256.size inb2))
        (View.ld (Val := Elt Ideal) (e' := .f32) x2 (Rect.unit (s := S1x1x1024) ![0, 0, o] S1x1x256.size inb3))) (.inl rfl) rfl rfl) shapeCasts_S1024x256_S1x1024x256 x
      = blkWeights x0 x1 x2 ((Rect.unit (s := S1x1024x1024) ![0, 0, o] S1x1024x256.size inbO).emb x) := by
  obtain ⟨u, s, j, rfl⟩ : ∃ (u : Fin 1) (s : Fin 1024) (j : Fin 256), x = ix3 u s j := ⟨x 0, x 1, x 2, eq_ix3 x⟩
  rw [shapeCast_ab_1ab_apply, chunk_weights o ho inb2 inb3 x0 x1 x2 s j]
  refine congrArg (blkWeights x0 x1 x2) (funext fun a => Fin.ext ?_)
  have hu : u.val = 0 := by omega
  match a with
  | ⟨0, _⟩ => show 0 = 0 + 1 * u.val; omega
  | ⟨1, _⟩ => show s.val = 0 + 1 * s.val; omega
  | ⟨2, _⟩ => show o + j.val = o + 1 * j.val; omega

/-- The four stores' payloads are the run's weights with the leading unit axis put back. -/
theorem pay7_eq (v0 : FVec Ideal S1x1024x1024 .f32) (w : FVec Ideal S1024x256 .f32) (bb : FVec Ideal S1x1x256 .f32) :
    k0_pay7 (F := Ideal) v0 w bb = shapeCast S1x1024x256 (k0_pay6 v0 w bb) shapeCasts_S1024x256_S1x1024x256 := rfl
theorem pay10_eq (v1 : FVec Ideal S1024x1024 .f32) (w : FVec Ideal S1024x256 .f32) (bb : FVec Ideal S1x1x256 .f32) :
    k0_pay10 (F := Ideal) v1 w bb = shapeCast S1x1024x256 (k0_pay9 v1 w bb) shapeCasts_S1024x256_S1x1024x256 := rfl
theorem pay15_eq (v68 v69 : FVec Ideal S1024x256 .f32) :
    k0_pay15 (F := Ideal) v68 v69 = shapeCast S1x1024x256 (k0_pay14 v68 v69) shapeCasts_S1024x256_S1x1024x256 := rfl
theorem pay1_eq (v : FVec Ideal S1024x256 .f32) :
    k0_pay1 (F := Ideal) v = shapeCast S1x1024x256 v shapeCasts_S1024x256_S1x1024x256 := rfl

/-- THE WEIGHTS BLOCK a grid point leaves: the block's weights function of its input blocks. -/
theorem out4_eq (c : Dev nD) (i : grid0.Coords) (a1 : Memref sig .tc .vmem S1x1024x1024 .f32) (h1 : a1.IsWhole)
    (a2 : Memref sig .tc .vmem S1024x1024 .f32) (h2 : a2.IsWhole) (a3 : Memref sig .tc .vmem S1x1x1024 .f32) (h3 : a3.IsWhole)
    (a4 : Memref sig .tc .vmem S1x1024x1024 .f32) (h4 : a4.IsWhole) (a5 : Memref sig .tc .vmem S1x1024x1024 .f32) (h5 : a5.IsWhole)
    (a6 : Memref sig .tc .vmem S1024x1024 .f32) (h6 : a6.IsWhole)
    (x0 : Vec Ideal S1x1024x1024 .f32) (x1 : Vec Ideal S1024x1024 .f32) (x2 : Vec Ideal S1x1x1024 .f32) :
    out0_A_4 (F := Ideal) c i a1 h1 a2 h2 a3 h3 a4 h4 a5 h5 a6 h6 x0 x1 x2 = blkWeights x0 x1 x2 := by
  unfold out0_A_4
  rw [View.read_writes_eq_canon _ _ _ (cover0_A_4 (F := Ideal) c i a1 h1 a2 h2 a3 h3 a4 h4 a5 h5 a6 h6 x0 x1 x2)]
  funext y
  refine View.canon_apply_of_pieces (blkWeights x0 x1 x2) _ ?_ y (cover0_A_4 (F := Ideal) c i a1 h1 a2 h2 a3 h3 a4 h4 a5 h5 a6 h6 x0 x1 x2 y)
  unfold kernelRun0_A
  dsimp only
  sl_unfold_words
  simp only [View.readAt_eq_ld, h1.read_unread, h2.read_unread, h3.read_unread, View.ld_unit_zero (S := S1x1024x1024) hz3,
    pay7_eq, pay10_eq, pay15_eq, pay1_eq, pay6_eq, pay9_eq, pay14_eq, pay17_eq]
  intro p hp x
  simp only [List.mem_cons, List.mem_singleton, List.not_mem_nil, or_false] at hp
  rcases hp with rfl | rfl | rfl | rfl
  · exact piece_eq 768 (by omega) inb_S1024x1024_S1024x256_0_768 inb_S1x1x1024_S1x1x256_0_0_768 inb_S1x1024x1024_S1x1024x256_0_0_768 x0 x1 x2 x
  · exact piece_eq 512 (by omega) inb_S1024x1024_S1024x256_0_512 inb_S1x1x1024_S1x1x256_0_0_512 inb_S1x1024x1024_S1x1024x256_0_0_512 x0 x1 x2 x
  · exact piece_eq 256 (by omega) inb_S1024x1024_S1024x256_0_256 inb_S1x1x1024_S1x1x256_0_0_256 inb_S1x1024x1024_S1x1024x256_0_0_256 x0 x1 x2 x
  · exact piece_eq 0 (by omega) inb_S1024x1024_S1024x256_0_0 inb_S1x1x1024_S1x1x256_0_0_0 inb_S1x1024x1024_S1x1024x256_0_0_0 x0 x1 x2 x

/-! ## The context block -/

/-- What is stored to the context block is the scratch with the block's leading unit axis put back. -/
theorem pay3_apply (z : Vec Ideal S1024x1024 .f32) (u : Fin 1) (s h : Fin 1024) :
    k0_pay3 (F := Ideal) z (ix3 u s h) = z (ix2 s h) := by
  unfold k0_pay3
  exact shapeCast_ab_1ab_apply z _ u s h

/-- The accumulator after its four steps from zero, when each run's weights are the block's weights at the run's
    columns, is the block's context: zero plus the four quarters of the sum over all 1024 positions, in order. -/
theorem ctx_chain (x0 : Vec Ideal S1x1024x1024 .f32) (x1 : Vec Ideal S1024x1024 .f32) (x2 : Vec Ideal S1x1x1024 .f32)
    (A0 A1 A2 A3 : FVec Ideal S1024x256 .f32)
    (hA0 : ∀ (s : Fin 1024) (j : Fin 256), A0 (ix2 s j) = blkWeights x0 x1 x2 (ix3 (0 : Fin 1) s (⟨0 + j.val, by have := j.isLt; omega⟩ : Fin 1024)))
    (hA1 : ∀ (s : Fin 1024) (j : Fin 256), A1 (ix2 s j) = blkWeights x0 x1 x2 (ix3 (0 : Fin 1) s (⟨256 + j.val, by have := j.isLt; omega⟩ : Fin 1024)))
    (hA2 : ∀ (s : Fin 1024) (j : Fin 256), A2 (ix2 s j) = blkWeights x0 x1 x2 (ix3 (0 : Fin 1) s (⟨512 + j.val, by have := j.isLt; omega⟩ : Fin 1024)))
    (hA3 : ∀ (s : Fin 1024) (j : Fin 256), A3 (ix2 s j) = blkWeights x0 x1 x2 (ix3 (0 : Fin 1) s (⟨768 + j.val, by have := j.isLt; omega⟩ : Fin 1024)))
    (u : Fin 1) (s h : Fin 1024) :
    accStep 768 slices_S1024x1024_o768_0_S256x1024 (k0_pay4 x0) A3
      (accStep 512 slices_S1024x1024_o512_0_S256x1024 (k0_pay4 x0) A2
        (accStep 256 slices_S1024x1024_o256_0_S256x1024 (k0_pay4 x0) A1
          (accStep 0 slices_S1024x1024_o0_0_S256x1024 (k0_pay4 x0) A0 k0_pay5))) (ix2 s h)
      = blkContext x0 x1 x2 (ix3 u s h) := by
  rw [accStep_apply 768 (by omega), accStep_apply 512 (by omega), accStep_apply 256 (by omega), accStep_apply 0 (by omega),
    pay5_apply]
  show _ = ∑ k : Fin 1024, blkWeights x0 x1 x2 (ix3 (0 : Fin 1) s k) * x0 (ix3 (0 : Fin 1) k h)
  rw [SumSplit.sum_chunks4]
  simp only [hA0, hA1, hA2, hA3, pay4_apply, Nat.zero_add]

/-- THE CONTEXT BLOCK a grid point leaves: the block's context function of its input blocks. -/
theorem out3_eq (c : Dev nD) (i : grid0.Coords) (a1 : Memref sig .tc .vmem S1x1024x1024 .f32) (h1 : a1.IsWhole)
    (a2 : Memref sig .tc .vmem S1024x1024 .f32) (h2 : a2.IsWhole) (a3 : Memref sig .tc .vmem S1x1x1024 .f32) (h3 : a3.IsWhole)
    (a4 : Memref sig .tc .vmem S1x1024x1024 .f32) (h4 : a4.IsWhole) (a5 : Memref sig .tc .vmem S1x1024x1024 .f32) (h5 : a5.IsWhole)
    (a6 : Memref sig .tc .vmem S1024x1024 .f32) (h6 : a6.IsWhole)
    (x0 : Vec Ideal S1x1024x1024 .f32) (x1 : Vec Ideal S1024x1024 .f32) (x2 : Vec Ideal S1x1x1024 .f32) :
    out0_A_3 (F := Ideal) c i a1 h1 a2 h2 a3 h3 a4 h4 a5 h5 a6 h6 x0 x1 x2 = blkContext x0 x1 x2 := by
  unfold out0_A_3
  rw [View.read_writes_eq_canon _ _ _ (cover0_A_3 (F := Ideal) c i a1 h1 a2 h2 a3 h3 a4 h4 a5 h5 a6 h6 x0 x1 x2)]
  unfold kernelRun0_A
  dsimp only
  sl_unfold_words
  rw [View.canon_unit_zero hz3]
  simp only [View.readCov_cons_unit_zero (S := S1024x1024) a6.view hz2, View.readAt_eq_ld, h1.read_unread, h2.read_unread,
    h3.read_unread, View.ld_unit_zero (S := S1x1024x1024) hz3, pay2_eq, pay16_eq, pay11_eq, pay8_eq, pay6_eq, pay9_eq,
    pay14_eq, pay17_eq]
  funext y
  obtain ⟨u, s, h, rfl⟩ : ∃ (u : Fin 1) (s h : Fin 1024), y = ix3 u s h := ⟨y 0, y 1, y 2, eq_ix3 y⟩
  rw [pay3_apply]
  exact ctx_chain x0 x1 x2 _ _ _ _
    (chunk_weights 0 (by omega) inb_S1024x1024_S1024x256_0_0 inb_S1x1x1024_S1x1x256_0_0_0 x0 x1 x2)
    (chunk_weights 256 (by omega) inb_S1024x1024_S1024x256_0_256 inb_S1x1x1024_S1x1x256_0_0_256 x0 x1 x2)
    (chunk_weights 512 (by omega) inb_S1024x1024_S1024x256_0_512 inb_S1x1x1024_S1x1x256_0_0_512 x0 x1 x2)
    (chunk_weights 768 (by omega) inb_S1024x1024_S1024x256_0_768 inb_S1x1x1024_S1x1x256_0_0_768 x0 x1 x2) u s h

end Cert.KernelIdeal.Body

end
-- ==== Proof.KernelValue.lean ====
/-
  The kernel's two result arrays after its run, as the specification's functions of the argument arrays.

  Before the region the host slices W into its two halves and transposes each, multiplies the hidden state by the
  first, adds the bias vector and reshapes: so the region finds the transposed second half of W in its second
  window's array and, in its third, the projected bias Σₖ ht[b,k]·W[h,k] + bias[h] with a unit middle axis. The grid
  has one point per batch; point t stages batch t's encoder rows and its row of the projected bias, and writes back
  block t of each result. What it writes is the block-level weights and context of those blocks (the body's value),
  which are the whole-array weights and context at batch t; every index of a result array lies in the block of the
  point its batch coordinate names, so each array ends as that one function.
-/
import proofs.«168176_j70007966925198_2_alg».proof.Proof.Gen.KernelIdeal.Value
import proofs.«168176_j70007966925198_2_alg».proof.Proof.BodyValue
import Idealize.ShloMosaic.Lib.StableHlo.Run
import Idealize.ShloMosaic.Lib.ValueLayout

set_option maxRecDepth 16384

noncomputable section

namespace Cert.KernelIdeal.KValue

open Cert.KernelIdeal Cert.KernelIdeal.Gen Cert.KernelIdeal.Value Cert.KernelIdeal.Body Idealize.ShloMosaic
open Idealize.ShloMosaic.TcCoe Idealize.ShloMosaic.ValueIdx Idealize.SL.Sem Cert.Attn Idealize.ShloMosaic.StableHlo
open Idealize.ShloMosaic.Pipeline (Dat)

/-! ## The host's product read at an index -/

/-- The host product's dimension numbers: the hidden state against the transposed first half of W. -/
abbrev dH : DotDims S16x1024 S1024x1024 S16x1024 := dot_S16x1024_S1024x1024_S16x1024_1_0_0_1_n_n

theorem lhsH_0 (i : S16x1024.Idx) (q : dH.contr.Idx) : (dH.lhsIdx i q 0).val = (i 0).val := by
  unfold DotDims.lhsIdx
  rw [dif_neg (show ¬(0 : Fin S16x1024.rank) ∈ dH.lhsBatch by decide), dif_pos (show (0 : Fin S16x1024.rank) ∈ dH.lhsNonContracting by decide)]
  rfl
theorem lhsH_1 (i : S16x1024.Idx) (q : dH.contr.Idx) : (dH.lhsIdx i q 1).val = (q ⟨0, by decide⟩).val :=
  dH.lhsIdx_val_of_single rfl i q
theorem rhsH_0 (i : S16x1024.Idx) (q : dH.contr.Idx) : (dH.rhsIdx i q 0).val = (q ⟨0, by decide⟩).val :=
  dH.rhsIdx_val_of_single rfl i q
theorem rhsH_1 (i : S16x1024.Idx) (q : dH.contr.Idx) : (dH.rhsIdx i q 1).val = (i 1).val := by
  unfold DotDims.rhsIdx
  rw [dif_neg (show ¬(1 : Fin S1024x1024.rank) ∈ dH.rhsBatch by decide), dif_pos (show (1 : Fin S1024x1024.rank) ∈ dH.rhsNonContracting by decide)]
  rfl

theorem hostdot_apply (l : FVec Ideal S16x1024 .f32) (r : FVec Ideal S1024x1024 .f32) (b : Fin 16) (h : Fin 1024) :
    Host.dotGeneral (F := Ideal) dH none l r (ix2 b h) = ∑ k : Fin 1024, l (ix2 b k) * r (ix2 k h) := by
  simp only [Host.dotGeneral]
  rw [Ideal.dotGeneral_apply, ← Equiv.sum_comp (contrEquiv1 dH 1024 rfl rfl).symm]
  refine Finset.sum_congr rfl fun k _ => ?_
  have hk := contrEquiv1_symm_val dH 1024 rfl rfl k
  have el : dH.lhsIdx (ix2 b h) ((contrEquiv1 dH 1024 rfl rfl).symm k) = ix2 b k := funext fun a => Fin.ext (by
    match a with
    | ⟨0, _⟩ => exact lhsH_0 _ _
    | ⟨1, _⟩ => exact (lhsH_1 _ _).trans hk)
  have er : dH.rhsIdx (ix2 b h) ((contrEquiv1 dH 1024 rfl rfl).symm k) = ix2 k h := funext fun a => Fin.ext (by
    match a with
    | ⟨0, _⟩ => exact (rhsH_0 _ _).trans hk
    | ⟨1, _⟩ => exact rhsH_1 _ _)
  rw [el, er]

variable (m : (ℓ : Loc nD τ sig) → Buf (Elt Ideal) ℓ) (ρ : Dev nD → PrngReg)

/-- The argument arrays as launched, as functions of their indices. -/
abbrev argHt (c : Dev nD) : FVec Ideal S16x1024 .f32 := m ((c : Thread nD τ).loc main_arg0)
abbrev argEnc (c : Dev nD) : FVec Ideal S16x1024x1024 .f32 := m ((c : Thread nD τ).loc main_arg1)
abbrev argW (c : Dev nD) : FVec Ideal S1024x2048 .f32 := m ((c : Thread nD τ).loc main_arg2)
abbrev argB (c : Dev nD) : FVec Ideal S1024 .f32 := m ((c : Thread nD τ).loc main_arg3)

/-! ## What the host leaves for the region -/

/-- The second window's array: the second half of W's columns, transposed. -/
theorem V8_eq (c : Dev nD) : (V m c main_v8 : S1024x1024.Idx → EReal)
    = transpose S1024x1024 [1, 0] (extractStridedSlice S1024x1024 ![0, 1024] (argW m c) slices_S1024x2048_S1024x1024_0_1024)
        transposes_S1024x1024_S1024x1024_1_0 := by
  dsimp only [V, hostOps0]; after_results <;> rfl

theorem V8_apply (c : Dev nD) (k h : Fin 1024) :
    (V m c main_v8 : S1024x1024.Idx → EReal) (ix2 k h) = argW m c (ix2 h (hi k)) := by
  rw [V8_eq m c, transpose_ix2_apply, slice2_axis1_apply 1024 _ _ h k (hi k) rfl]

/-- The third window's array: the hidden state against the transposed first half of W, plus the bias vector broadcast
    over the batches, with a unit middle axis. -/
theorem V7_eq (c : Dev nD) : (V m c main_v7 : S16x1x1024.Idx → EReal)
    = shapeCast S16x1x1024 (addf (Host.dotGeneral (F := Ideal) dH none (argHt m c)
        (transpose S1024x1024 [1, 0] (extractStridedSlice S1024x1024 ![0, 0] (argW m c) slices_S1024x2048_S1024x1024_0_0)
          transposes_S1024x1024_S1024x1024_1_0))
        (broadcastInDim S16x1024 ![0, 1] bcast_S1x1024_S16x1024_0_1 (broadcastInDim S1x1024 ![1] bcast_S1024_S1x1024_1 (argB m c))))
      shapeCasts_S16x1024_S16x1x1024 := by
  dsimp only [V, hostOps0]; after_results <;> rfl

theorem V7_apply (c : Dev nD) (b : Fin 16) (h : Fin 1024) :
    (V m c main_v7 : S16x1x1024.Idx → EReal) (ix3 b (0 : Fin 1) h) = projBias (argHt m c) (argW m c) (argB m c) b h := by
  rw [V7_eq m c]
  refine (shapeCast_apply _ shapeCasts_S16x1024_S16x1x1024 (ix3 b (0 : Fin 1) h) (ix2 b h) (by
    rw [Shape.rowMajor_val_two, Shape.rowMajor_val_three]
    show b.val * 1024 + h.val = (b.val * 1 + 0) * 1024 + h.val
    omega)).trans ?_
  unfold projBias
  rw [addf_apply, hostdot_apply]
  refine congrArg₂ (· + ·) (Finset.sum_congr rfl fun k _ => ?_) ?_
  · rw [transpose_ix2_apply, slice2_axis1_apply 0 _ _ h k (lo k) (Nat.zero_add _).symm]
  · refine (broadcastInDim_apply _ bcast_S1x1024_S16x1024_0_1 _ (ix2 b h) (ix2 (0 : Fin 1) h) (fun a => match a with
      | ⟨0, _⟩ => by show 0 = if (1 : Nat) = 1 then 0 else b.val; rw [if_pos rfl]
      | ⟨1, _⟩ => by show h.val = if (1024 : Nat) = 1 then 0 else h.val; rw [if_neg (by decide)])).trans ?_
    exact broadcastInDim_apply _ bcast_S1024_S1x1024_1 _ (ix2 (0 : Fin 1) h) (ix1 h) (fun a => match a with
      | ⟨0, _⟩ => by show h.val = if (1024 : Nat) = 1 then 0 else h.val; rw [if_neg (by decide)])

/-! ## The grid: which block each point stages -/

/-- The printed index maps, decided over the sixteen points: a window that moves with the batch is at block t on its
    first axis and block 0 on the others; the weights' window never moves. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- The batch a point works on. -/
abbrev bt (t : Fin cfg0.N) : Fin 16 := ⟨t.val, by have h := t.isLt; have hN : cfg0.N = 16 := N_0; omega⟩

/-- What point t's three input blocks read: batch t's encoder rows; the transposed second half of W; batch t's row
    of the projected bias. -/
theorem blocks_read (c : Dev nD) (t : Fin cfg0.N) :
    (∀ s k : Fin 1024, iblk m c 0 t (ix3 (0 : Fin 1) s k) = argEnc m c (ix3 (bt t) s k))
    ∧ (∀ k h : Fin 1024, iblk m c 1 t (ix2 k h) = argW m c (ix2 h (hi k)))
    ∧ (∀ h : Fin 1024, iblk m c 2 t (ix3 (0 : Fin 1) (0 : Fin 1) h) = projBias (argHt m c) (argW m c) (argB m c) (bt t) h) := by
  obtain ⟨a0, a1, a2, b0, b1, c0, c1, c2, -, -, -, -, -, -⟩ := idx_facts t
  refine ⟨fun s k => ?_, fun k h => ?_, fun h => ?_⟩
  · show V m c main_arg1 (((cfg0.win 0).blk t).view.emb (ix3 (0 : Fin 1) s k)) = _
    rw [V_main_arg1]
    refine congrArg (argEnc m c) (funext fun a => Fin.ext ?_)
    match a with
    | ⟨0, _⟩ => show win0_0.index t (0 : Fin 3) * 1 + 1 * 0 = t.val; omega
    | ⟨1, _⟩ => show win0_0.index t (1 : Fin 3) * 1024 + 1 * s.val = s.val; omega
    | ⟨2, _⟩ => show win0_0.index t (2 : Fin 3) * 1024 + 1 * k.val = k.val; omega
  · show V m c main_v8 (((cfg0.win 1).blk t).view.emb (ix2 k h)) = _
    have he : ((cfg0.win 1).blk t).view.emb (ix2 k h) = ix2 k h := funext fun a => Fin.ext (by
      match a with
      | ⟨0, _⟩ => show win0_1.index t (0 : Fin 2) * 1024 + 1 * k.val = k.val; omega
      | ⟨1, _⟩ => show win0_1.index t (1 : Fin 2) * 1024 + 1 * h.val = h.val; omega)
    rw [he]
    exact V8_apply m c k h
  · show V m c main_v7 (((cfg0.win 2).blk t).view.emb (ix3 (0 : Fin 1) (0 : Fin 1) h)) = _
    have he : ((cfg0.win 2).blk t).view.emb (ix3 (0 : Fin 1) (0 : Fin 1) h) = ix3 (bt t) (0 : Fin 1) h := funext fun a => Fin.ext (by
      match a with
      | ⟨0, _⟩ => show win0_2.index t (0 : Fin 3) * 1 + 1 * 0 = t.val; omega
      | ⟨1, _⟩ => show win0_2.index t (1 : Fin 3) * 1 + 1 * 0 = 0; omega
      | ⟨2, _⟩ => show win0_2.index t (2 : Fin 3) * 1024 + 1 * h.val = h.val; omega)
    rw [he]
    exact V7_apply m c (bt t) h

/-! ## The two result arrays -/

/-- WHAT POINT `t` WRITES BACK to window 3's array is block `t` of the context function of the argument arrays. -/
theorem flushed3_eq (c : Dev nD) (t : Fin cfg0.N) :
    (dats m 0 c).flushed 3 t
      = ((cfg0.win 3).blk t).view.read (Elt Ideal) (context (argHt m c) (argEnc m c) (argW m c) (argB m c)) := by
  rw [flushed3_A, out3_eq c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t)]
  obtain ⟨hb0, hb1, hb2⟩ := blocks_read m c t
  obtain ⟨-, -, -, -, -, -, -, -, f0, f1, f2, g0, g1, g2⟩ := idx_facts t
  funext j
  obtain ⟨u, s, h, rfl⟩ : ∃ (u : Fin 1) (s h : Fin 1024), j = ix3 u s h := ⟨j 0, j 1, j 2, eq_ix3 j⟩
  obtain rfl : u = 0 := Subsingleton.elim _ _
  show blkContext (iblk m c 0 t) (iblk m c 1 t) (iblk m c 2 t) (ix3 (0 : Fin 1) s h)
    = context (argHt m c) (argEnc m c) (argW m c) (argB m c) (((cfg0.win 3).blk t).view.emb (ix3 (0 : Fin 1) s h))
  rw [blkContext_eq (argHt m c) (argEnc m c) (argW m c) (argB m c) (bt t) (iblk m c 0 t) (iblk m c 1 t) (iblk m c 2 t) hb0 hb1 hb2 s h]
  refine congrArg (context (argHt m c) (argEnc m c) (argW m c) (argB m c)) (funext fun a => Fin.ext ?_)
  match a with
  | ⟨0, _⟩ => show t.val = win0_3.index t (0 : Fin 3) * 1 + 1 * 0; omega
  | ⟨1, _⟩ => show s.val = win0_3.index t (1 : Fin 3) * 1024 + 1 * s.val; omega
  | ⟨2, _⟩ => show h.val = win0_3.index t (2 : Fin 3) * 1024 + 1 * h.val; omega

/-- An index of the array is in point `t`'s block iff each coordinate is in the block's range on its axis. -/
theorem mem_blk3 (t : Fin cfg0.N) (i : S16x1024x1024.Idx) :
    i ∈ ((cfg0.win 3).blk t).view.set ↔ ∀ a : Fin 3, win0_3.index t a * S1x1024x1024.size a ≤ (i a).val
      ∧ (i a).val < win0_3.index t a * S1x1024x1024.size a + S1x1024x1024.size a := by
  show i ∈ ((View.whole main_v9_0).slice (win0_3.rect t)).set ↔ _
  rw [View.set_slice_whole, Rect.mem_set_unit]
  exact Iff.rfl

/-- Every index of the array is in the block of the point its batch coordinate names. -/
theorem cover3 (i : S16x1024x1024.Idx) :
    ∃ t : Fin cfg0.N, (cfg0.win 3).flush t = true ∧ i ∈ ((cfg0.win 3).blk t).view.set := by
  have hi0 : (i 0).val < 16 := (i 0).isLt
  have hi1 : (i 1).val < 1024 := (i 1).isLt
  have hi2 : (i 2).val < 1024 := (i 2).isLt
  have hN : cfg0.N = 16 := N_0
  obtain ⟨t, ht⟩ : ∃ t : Fin cfg0.N, t.val = (i 0).val := ⟨⟨(i 0).val, by omega⟩, rfl⟩
  obtain ⟨-, -, -, -, -, -, -, -, f0, f1, f2, g0, g1, g2⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 1024 ≤ (i 2).val ∧ (i 2).val < win0_3.index t (2 : Fin 3) * 1024 + 1024; omega

/-- THE ARRAY after the run: the context function of the argument arrays. -/
theorem final3 (c : Dev nD) :
    (dats m 0 c).arrAt 3 cfg0.N = context (argHt m c) (argEnc m c) (argW m c) (argB m c) :=
  (dats m 0 c).arrAt_eq_of_cover 3 (context (argHt m c) (argEnc m c) (argW m c) (argB m c)) (fun t _ => flushed3_eq m c t) cover3

/-- WHAT POINT `t` WRITES BACK to window 4's array is block `t` of the weights function of the argument arrays. -/
theorem flushed4_eq (c : Dev nD) (t : Fin cfg0.N) :
    (dats m 0 c).flushed 4 t
      = ((cfg0.win 4).blk t).view.read (Elt Ideal) (weights (argHt m c) (argEnc m c) (argW m c) (argB m c)) := by
  rw [flushed4_A, out4_eq c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t)]
  obtain ⟨hb0, hb1, hb2⟩ := blocks_read m c t
  obtain ⟨-, -, -, -, -, -, -, -, f0, f1, f2, g0, g1, g2⟩ := idx_facts t
  funext j
  obtain ⟨u, s, h, rfl⟩ : ∃ (u : Fin 1) (s h : Fin 1024), j = ix3 u s h := ⟨j 0, j 1, j 2, eq_ix3 j⟩
  obtain rfl : u = 0 := Subsingleton.elim _ _
  show blkWeights (iblk m c 0 t) (iblk m c 1 t) (iblk m c 2 t) (ix3 (0 : Fin 1) s h)
    = weights (argHt m c) (argEnc m c) (argW m c) (argB m c) (((cfg0.win 4).blk t).view.emb (ix3 (0 : Fin 1) s h))
  rw [blkWeights_eq (argHt m c) (argEnc m c) (argW m c) (argB m c) (bt t) (iblk m c 0 t) (iblk m c 1 t) (iblk m c 2 t) hb0 hb1 hb2 s h]
  refine congrArg (weights (argHt m c) (argEnc m c) (argW m c) (argB m c)) (funext fun a => Fin.ext ?_)
  match a with
  | ⟨0, _⟩ => show t.val = win0_4.index t (0 : Fin 3) * 1 + 1 * 0; omega
  | ⟨1, _⟩ => show s.val = win0_4.index t (1 : Fin 3) * 1024 + 1 * s.val; omega
  | ⟨2, _⟩ => show h.val = win0_4.index t (2 : Fin 3) * 1024 + 1 * h.val; omega

/-- An index of the array is in point `t`'s block iff each coordinate is in the block's range on its axis. -/
theorem mem_blk4 (t : Fin cfg0.N) (i : S16x1024x1024.Idx) :
    i ∈ ((cfg0.win 4).blk t).view.set ↔ ∀ a : Fin 3, win0_4.index t a * S1x1024x1024.size a ≤ (i a).val
      ∧ (i a).val < win0_4.index t a * S1x1024x1024.size a + S1x1024x1024.size a := by
  show i ∈ ((View.whole main_v9_1).slice (win0_4.rect t)).set ↔ _
  rw [View.set_slice_whole, Rect.mem_set_unit]
  exact Iff.rfl

/-- Every index of the array is in the block of the point its batch coordinate names. -/
theorem cover4 (i : S16x1024x1024.Idx) :
    ∃ t : Fin cfg0.N, (cfg0.win 4).flush t = true ∧ i ∈ ((cfg0.win 4).blk t).view.set := by
  have hi0 : (i 0).val < 16 := (i 0).isLt
  have hi1 : (i 1).val < 1024 := (i 1).isLt
  have hi2 : (i 2).val < 1024 := (i 2).isLt
  have hN : cfg0.N = 16 := N_0
  obtain ⟨t, ht⟩ : ∃ t : Fin cfg0.N, t.val = (i 0).val := ⟨⟨(i 0).val, by omega⟩, rfl⟩
  obtain ⟨-, -, -, -, -, -, -, -, f0, f1, f2, g0, g1, g2⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 1024 ≤ (i 2).val ∧ (i 2).val < win0_4.index t (2 : Fin 3) * 1024 + 1024; omega

/-- THE ARRAY after the run: the weights function of the argument arrays. -/
theorem final4 (c : Dev nD) :
    (dats m 0 c).arrAt 4 cfg0.N = weights (argHt m c) (argEnc m c) (argW m c) (argB m c) :=
  (dats m 0 c).arrAt_eq_of_cover 4 (weights (argHt m c) (argEnc m c) (argW m c) (argB m c)) (fun t _ => flushed4_eq m c t) cover4

/-! ## The run, read -/

/-- Every weakly fair execution of the kernel's program terminates with the first result at the context and the
    second at the weights of the argument arrays, the arguments unchanged. -/
theorem run : θ_run defs (onTc (τ := τ) (main (F := Ideal))) ⟨m, fun _ => 0, ρ⟩ fun r => ∀ c : Dev nD,
      r.2.mem ((c : Thread nD τ).loc main_v9_0) = context (argHt m c) (argEnc m c) (argW m c) (argB m c)
      ∧ r.2.mem ((c : Thread nD τ).loc main_v9_1) = weights (argHt m c) (argEnc m c) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final3 m c), (h c).2.1.trans (final4 m c), (h c).2.2⟩)
    (run_blocks m ρ)

end Cert.KernelIdeal.KValue

end
-- ==== Proof.RefValue.lean ====
/-
  The reference's two results are the specification's functions of the arguments.

  The reference concatenates the hidden state (repeated along the sequence) with the encoder rows along the feature
  axis and multiplies by all 2048 columns of W at once: at (b, s, h) a sum over 2048 positions whose first 1024 terms
  are ht[b,k]·W[h,k] and whose last 1024 are enc[b,s,k]·W[h,1024+k]. Split at 1024 and re-associated with the bias,
  that is the specification's energy. Its softmax takes the maximum over the sequence axis as a fold from −∞ (and once
  more against −∞, which changes nothing), the sum from zero, and the quotient; its context is the contraction of the
  weights with the batch's encoder rows.
-/
import proofs.«168176_j70007966925198_2_alg».proof.Proof.Gen.ReferenceIdeal.Read
import proofs.«168176_j70007966925198_2_alg».proof.Proof.Softmax
import proofs.«168176_j70007966925198_2_alg».proof.Proof.SumSplit
import Idealize.ShloMosaic.Lib.Pipeline.Value
import Idealize.ShloMosaic.PureOps.Reduce

set_option maxRecDepth 16384

noncomputable section

namespace Cert.ReferenceIdeal.RefValue

open Cert.ReferenceIdeal Cert.ReferenceIdeal.Gen Cert.ReferenceIdeal.Read Idealize.ShloMosaic Idealize.ShloMosaic.ValueIdx Cert.Attn

variable (x0 : S16x1024.Idx → EReal) (x1 : S16x1024x1024.Idx → EReal) (x2 : S1024x2048.Idx → EReal) (x3 : S1024.Idx → EReal)

/-! ## The concatenation -/

/-- In its first 1024 columns the concatenation reads the hidden state of the batch, whatever the position. -/
theorem concat_lo (b : Fin 16) (s k : Fin 1024) : val_main_v2 (F := Ideal) x0 x1 (ix3 b s (lo k)) = x0 (ix2 b k) := by
  unfold val_main_v2
  refine (concatenate_pair_apply_left (t := S16x1024x2048) (s₁ := S16x1024x1024) (s₂ := S16x1024x1024) (2 : Fin 3)
    (val_main_v1 (F := Ideal) x0) x1 concatenates_S16x1024x1024_S16x1024x1024_S16x1024x2048_d2
    (ix3 b s (lo k)) rfl (ix3 b s k) (fun bb => by match bb with | ⟨0, _⟩ => rfl | ⟨1, _⟩ => rfl | ⟨2, _⟩ => rfl)).trans ?_
  rw [val_main_v1_apply, val_main_v0_apply]
  exact congrArg x0 (funext fun a => Fin.ext (by match a with | ⟨0, _⟩ => rfl | ⟨1, _⟩ => rfl))

/-- In its last 1024 columns it reads the encoder rows. -/
theorem concat_hi (b : Fin 16) (s k : Fin 1024) : val_main_v2 (F := Ideal) x0 x1 (ix3 b s (hi k)) = x1 (ix3 b s k) := by
  unfold val_main_v2
  exact concatenate_pair_apply_right (t := S16x1024x2048) (s₁ := S16x1024x1024) (s₂ := S16x1024x1024) (2 : Fin 3)
    (val_main_v1 (F := Ideal) x0) x1 concatenates_S16x1024x1024_S16x1024x1024_S16x1024x2048_d2
    (ix3 b s (hi k)) rfl rfl (ix3 b s k)
    (fun bb hne => by
      match bb with
      | ⟨0, _⟩ => rfl
      | ⟨1, _⟩ => rfl
      | ⟨2, _⟩ => exact absurd rfl hne)
    (by show k.val + 1024 = 1024 + k.val; omega)

/-! ## The energies -/

theorem v7_apply (b : Fin 16) (s h : Fin 1024) :
    val_main_v7 (F := Ideal) x0 x1 x2 x3 (ix3 b s h) = energy x0 x1 x2 x3 b h s := by
  rw [val_main_v7_apply, val_main_v6_apply, val_main_v3_apply, val_main_v5_apply, val_main_v4_apply]
  have hl : ∀ k : Fin 2048, lidx_main_v3 (ix3 b s h) k = ix3 b s k := fun k => funext fun a => Fin.ext (by
    match a with | ⟨0, _⟩ => rfl | ⟨1, _⟩ => rfl | ⟨2, _⟩ => rfl)
  have hr : ∀ k : Fin 2048, ridx_main_v3 (ix3 b s h) k = ix2 h k := fun k => funext fun a => Fin.ext (by
    match a with | ⟨0, _⟩ => rfl | ⟨1, _⟩ => rfl)
  have h3 : idx_main_v4 (idx_main_v5 (ix3 b s h)) = ix1 h := funext fun a => Fin.ext (by
    match a with | ⟨0, _⟩ => rfl)
  simp only [hl, hr, h3]
  unfold energy projBias
  show Ideal.tanh ((∑ k : Fin 2048, val_main_v2 (F := Ideal) x0 x1 (ix3 b s k) * x2 (ix2 h k)) + x3 (ix1 h)) = _
  rw [SumSplit.sum_split 1024 1024 2048 rfl]
  show Ideal.tanh (((∑ k : Fin 1024, val_main_v2 (F := Ideal) x0 x1 (ix3 b s (lo k)) * x2 (ix2 h (lo k)))
    + ∑ k : Fin 1024, val_main_v2 (F := Ideal) x0 x1 (ix3 b s (hi k)) * x2 (ix2 h (hi k))) + x3 (ix1 h)) = _
  simp only [concat_lo, concat_hi]
  exact congrArg Ideal.tanh ((add_assoc _ _ _).trans (add_left_comm _ _ _))

/-! ## The softmax over the sequence axis -/

/-- The reduction over the sequence axis, as the library's witness of it. -/
theorem reduces_seq : S16x1024x1024.Reduces [1] S16x1024 := by decide

theorem lift_seq (b : Fin 16) (h s : Fin 1024) : reduces_seq.lift (ix2 b h) s = ix3 b s h :=
  funext fun a => Fin.ext (by match a with | ⟨0, _⟩ => rfl | ⟨1, _⟩ => rfl | ⟨2, _⟩ => rfl)

/-- The column maximum: the fold from −∞ over the positions, then once more against −∞. -/
theorem v12_apply (b : Fin 16) (h : Fin 1024) :
    val_main_v12 (F := Ideal) x0 x1 x2 x3 (ix2 b h) = colMax (energy x0 x1 x2 x3 b h) := by
  rw [val_main_v12_apply, val_main_v11_apply, val_main_cst_0_apply]
  have e10 : val_main_v10 (F := Ideal) x0 x1 x2 x3 (ix2 b h) = colMax (energy x0 x1 x2 x3 b h) := by
    unfold val_main_v10
    refine (Host.reduce_eq_fold_single (α := Ideal .f32) (s := S16x1024x1024) (t := S16x1024) (u := S_)
      (FloatOps.maximumf (F := Ideal) (φ := .f32)) (val_main_v7 (F := Ideal) x0 x1 x2 x3)
      (val_main_cst (F := Ideal) : S_.Idx → Ideal .f32)
      reducesTo_S16x1024x1024_S16x1024_d1 reduces_seq h_S_ (ix2 b h)).trans ?_
    show Finset.fold max negInf (fun s : Fin 1024 => val_main_v7 (F := Ideal) x0 x1 x2 x3 (reduces_seq.lift (ix2 b h) s)) Finset.univ
      = Finset.fold max negInf (energy x0 x1 x2 x3 b h) Finset.univ
    simp only [lift_seq, v7_apply]
  rw [e10]
  exact max_negInf _

/-- The weights. -/
theorem v20_apply (b : Fin 16) (s h : Fin 1024) :
    val_main_v20 (F := Ideal) x0 x1 x2 x3 (ix3 b s h) = weights x0 x1 x2 x3 (ix3 b s h) := by
  have i14 : idx_main_v13 (idx_main_v14 (ix3 b s h)) = ix2 b h := funext fun a => Fin.ext (by
    match a with | ⟨0, _⟩ => rfl | ⟨1, _⟩ => rfl)
  have i19 : idx_main_v18 (idx_main_v19 (ix3 b s h)) = ix2 b h := funext fun a => Fin.ext (by
    match a with | ⟨0, _⟩ => rfl | ⟨1, _⟩ => rfl)
  have i17 : ∀ k : Fin 1024, idx_main_v17 (ix2 b h) k = ix3 b k h := fun k => funext fun a => Fin.ext (by
    match a with | ⟨0, _⟩ => rfl | ⟨1, _⟩ => rfl | ⟨2, _⟩ => rfl)
  have e16 : ∀ s' : Fin 1024, val_main_v16 (F := Ideal) x0 x1 x2 x3 (ix3 b s' h)
      = Ideal.exp (energy x0 x1 x2 x3 b h s' - colMax (energy x0 x1 x2 x3 b h)) := fun s' => by
    have i14' : idx_main_v13 (idx_main_v14 (ix3 b s' h)) = ix2 b h := funext fun a => Fin.ext (by
      match a with | ⟨0, _⟩ => rfl | ⟨1, _⟩ => rfl)
    rw [val_main_v16_apply, val_main_v15_apply, val_main_v14_apply, val_main_v13_apply, i14', v12_apply, v7_apply]
    rfl
  rw [val_main_v20_apply, val_main_v19_apply, val_main_v18_apply, i19, val_main_v17_apply, val_main_cst_1_apply, e16]
  simp only [i17, e16]
  show Ideal.div _ (Ideal.ofBits .f32 0x00000000#32 + _) = colSoftmax (energy x0 x1 x2 x3 b h) s
  rw [zero_eq, zero_add]
  rfl

theorem weights_eq : val_main_v20 (F := Ideal) x0 x1 x2 x3 = weights x0 x1 x2 x3 := by
  funext i
  obtain ⟨b, s, h, rfl⟩ : ∃ (b : Fin 16) (s h : Fin 1024), i = ix3 b s h := ⟨i 0, i 1, i 2, eq_ix3 i⟩
  exact v20_apply x0 x1 x2 x3 b s h

/-- The context. -/
theorem context_eq : val_main_v21 (F := Ideal) x0 x1 x2 x3 = context x0 x1 x2 x3 := by
  funext i
  obtain ⟨b, s, h, rfl⟩ : ∃ (b : Fin 16) (s h : Fin 1024), i = ix3 b s h := ⟨i 0, i 1, i 2, eq_ix3 i⟩
  rw [val_main_v21_apply]
  have hl : ∀ k : Fin 1024, lidx_main_v21 (ix3 b s h) k = ix3 b s k := fun k => funext fun a => Fin.ext (by
    match a with | ⟨0, _⟩ => rfl | ⟨1, _⟩ => rfl | ⟨2, _⟩ => rfl)
  have hr : ∀ k : Fin 1024, ridx_main_v21 (ix3 b s h) k = ix3 b k h := fun k => funext fun a => Fin.ext (by
    match a with | ⟨0, _⟩ => rfl | ⟨1, _⟩ => rfl | ⟨2, _⟩ => rfl)
  simp only [hl, hr, v20_apply]
  rfl

end Cert.ReferenceIdeal.RefValue

end
-- ==== Proof.lean ====
/-
  The certificate of an additive-attention kernel against its jnp reference.

  For every batch b, sequence position s and feature h both programs return
      weights[b,s,h] = the softmax, over the sequence axis, of  tanh ( Σₖ enc[b,s,k]·W[h,1024+k] + Σₖ ht[b,k]·W[h,k] + bias[h] ),
      context[b,s,h] = Σₖ weights[b,s,k] · enc[b,k,h],
  read on the extended reals (Proof/Softmax.lean states these functions).

  The kernel computes the hidden-state part of the energy and the bias once on the host, then one grid point per batch:
  the encoder part of the energy as a product with the transposed second half of W, feature run by feature run (four
  runs of 256 columns); each run's softmax down its columns; and the context as an accumulator that starts at zero and
  receives, per run, the run's weights against the encoder rows the run names. The reference concatenates the hidden
  state with the encoder rows and multiplies by all of W at once, and contracts the weights with the encoder rows in
  one sum. The two agree by three facts about sums, none of which needs the inputs to be finite: a sum over 2048
  positions is the sum of its two halves; addition is commutative and associative; a sum over 1024 positions is the
  left-nested sum from zero of its four quarters. The changes of float format before the second product are the
  identity on the extended reals, and a maximum against −∞ is the other operand.

  The kernel's and the idealized kernel's frames are the generated ones; the reference's frame is its generated run
  with the results dropped; the idealization rewrote nothing, so `preserves` is trivial.
-/
import proofs.«168176_j70007966925198_2_alg».proof.Defs
import proofs.«168176_j70007966925198_2_alg».proof.Proof.Gen.Kernel
import proofs.«168176_j70007966925198_2_alg».proof.Proof.Gen.Kernel.Skeleton
import proofs.«168176_j70007966925198_2_alg».proof.Proof.Gen.Kernel.Launch
import proofs.«168176_j70007966925198_2_alg».proof.Proof.Gen.Kernel.Points
import proofs.«168176_j70007966925198_2_alg».proof.Proof.Gen.Kernel.Frame
import proofs.«168176_j70007966925198_2_alg».proof.Proof.Gen.KernelIdeal
import proofs.«168176_j70007966925198_2_alg».proof.Proof.Gen.KernelIdeal.Skeleton
import proofs.«168176_j70007966925198_2_alg».proof.Proof.Gen.KernelIdeal.Launch
import proofs.«168176_j70007966925198_2_alg».proof.Proof.Gen.KernelIdeal.Points
import proofs.«168176_j70007966925198_2_alg».proof.Proof.Gen.KernelIdeal.Frame
import proofs.«168176_j70007966925198_2_alg».proof.Proof.Gen.ReferenceIdeal
import proofs.«168176_j70007966925198_2_alg».proof.Proof.Gen.Pre_finite_inputs
import proofs.«168176_j70007966925198_2_alg».proof.Proof.Gen.KernelIdeal.Value
import proofs.«168176_j70007966925198_2_alg».proof.Proof.Gen.ReferenceIdeal.Run
import proofs.«168176_j70007966925198_2_alg».proof.Proof.Gen.ReferenceIdeal.Read
import proofs.«168176_j70007966925198_2_alg».proof.Proof.KernelValue
import proofs.«168176_j70007966925198_2_alg».proof.Proof.RefValue
import Idealize.ShloMosaic.Adequacy
import Idealize.ShloMosaic.Init

noncomputable section

namespace Cert.Proof

open Idealize.ShloMosaic Idealize.ShloMosaic.TcCoe Idealize.SL.Sem Cert.Attn

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the context in their first result and the weights in their second, of arguments that agree. -/
theorem algebraic : Cert.algebraic_KernelIdeal_ReferenceIdeal := by
  intro m ρ m' ρ' _ hagree
  refine ⟨fun c => context (Cert.KernelIdeal.KValue.argHt m c) (Cert.KernelIdeal.KValue.argEnc m c)
      (Cert.KernelIdeal.KValue.argW m c) (Cert.KernelIdeal.KValue.argB m c),
    fun c => weights (Cert.KernelIdeal.KValue.argHt m c) (Cert.KernelIdeal.KValue.argEnc m c)
      (Cert.KernelIdeal.KValue.argW m c) (Cert.KernelIdeal.KValue.argB m c),
    Cert.KernelIdeal.KValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v21_eq, Cert.ReferenceIdeal.RefValue.context_eq,
      (hagree c).1, (hagree c).2.1, (hagree c).2.2.1, (hagree c).2.2.2.1]
  · rw [(h c).2.1, Cert.ReferenceIdeal.Read.val_main_v20_eq, Cert.ReferenceIdeal.RefValue.weights_eq,
      (hagree c).1, (hagree c).2.1, (hagree c).2.2.1, (hagree c).2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
